-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x3 : Shape := ⟨2, ![8192, 3]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_

variable [Facts]

def fn {F : FTy → Type} [FloatOps F] (main_arg0 : FVec F S8192x8192 .f32) (main_arg1 : FVec F S8192x3 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x8192 : Shape := ⟨2, ![8192, 8192]⟩
abbrev S8192x3 : Shape := ⟨2, ![8192, 3]⟩
abbrev S16x128 : Shape := ⟨2, ![16, 128]⟩
abbrev S128x8192 : Shape := ⟨2, ![128, 8192]⟩
abbrev S128x3 : Shape := ⟨2, ![128, 3]⟩
abbrev S8x128 : Shape := ⟨2, ![8, 128]⟩
abbrev S3x8192 : Shape := ⟨2, ![3, 8192]⟩
abbrev S128 : Shape := ⟨1, ![128]⟩
abbrev S128x1 : Shape := ⟨2, ![128, 1]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x3, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x3, .f32⟩
  | .local _ .vmem, ⟨3, _⟩ => ⟨S128x3, .f32⟩
  | .local _ .vmem, ⟨4, _⟩ => ⟨S8192x3, .f32⟩
  | .local _ .vmem, ⟨5, _⟩ => ⟨S8x128, .f32⟩
  | .local _ .vmem, ⟨6, _⟩ => ⟨S8x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S128x3_S128x3_0_0 : ∀ a, (![0, 0] : Fin 2 → Nat) a + S128x3.size a ≤ S128x3.size a
  h_S128x3 : 0 < S128x3.numel
  inb_S8192x3_S8192x3_0_0 : ∀ a, (![0, 0] : Fin 2 → Nat) a + S8192x3.size a ≤ S8192x3.size a
  h_S8192x3 : 0 < S8192x3.numel
  transposes_S8192x3_p1_0_S3x8192 : S8192x3.Transposes [1, 0] S3x8192
  reduces_S128x3_S128 : S128x3.Reduces [1] S128
  shapeCasts_S128_S128x1 : S128.ShapeCasts S128x1
  reduces_S3x8192_S8192 : S3x8192.Reduces [0] S8192
  shapeCasts_S8192_S1x8192 : S8192.ShapeCasts S1x8192
  broadcasts_S128x1_S128x8192 : S128x1.Broadcasts S128x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  reduces_S128x1_S1 : S128x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  dot_S128x3_S3x8192_S128x8192_1_0_0_1_n_n_wf : DotDims.WF S128x3 S3x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S8192x3.size a
  hwx0_1 : ∀ i : grid0.Coords, EltTy.bits .f32 = 32 ∨ (Rect.block (s := S8192x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x3.size a ≤ S8192x3.size a
  hwx0_2 : ∀ i : grid0.Coords, EltTy.bits .f32 = 32 ∨ (Rect.block (s := S8192x3) S8192x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S128x3_S3x8192_S128x8192_1_0_0_1_n_n : DotDims S128x3 S3x8192 S128x8192 where
  lhsContracting := [1]
  rhsContracting := [0]
  lhsNonContracting := [0]
  rhsNonContracting := [1]
  lhsBatch := []
  rhsBatch := []
  wf := dot_S128x3_S3x8192_S128x8192_1_0_0_1_n_n_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S3x8192 : Shape := ⟨2, ![3, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S3x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S_d0_1 : S8192x8192.ReducesTo [0, 1] S_
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.BitsStage.lean ====
/-
  The kernel walks a 2 x 32 grid of row tiles: point t = 32 a + b handles the 128 rows 128 t .. 128 t + 127 of the
  8192 x 8192 matrix P (window 0), the same 128 rows of the 8192 x 3 positions y (window 1), all of y (window 2, the
  same array again), and adds the tile's total into an 8 x 128 block of partial sums (window 3) that belongs to the
  half a: the block is zeroed when b = 0 and written back after b = 31.
  This module names what each input window's staging buffer holds at a point (the block of its array there) and
  decides, over the 64 points, where the zeroing branch is taken.
-/
import proofs.«158081_j41807211660012_1_alg».proof.Proof.Gen.Kernel.Launch
import proofs.«158081_j41807211660012_1_alg».proof.Proof.Gen.Kernel.Skeleton
import proofs.«158081_j41807211660012_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The arrays as the kernel finds them: the launch memory (nothing runs before the kernel). -/
abbrev V (c : Dev nD) (b : Ref sig .tc) : Buf (Elt F) ((c : Thread nD τ).loc b) := m ((c : Thread nD τ).loc b)

/-- Window `w`'s block at point `t`: the rows of its array that the point's index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of P is in its buffer at every point (it is fetched at every point). -/
theorem before_P {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The tile's 128 rows of y are in their buffer at every point. -/
theorem before_rows {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- All of y is in its buffer at every point: fetched once, its index never moves, and the body only reads it. -/
theorem before_all {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The zeroing branch's condition: the second grid coordinate is 0. -/
abbrev isFirst (i : grid0.Coords) : Prop := (Scalar.cmpi .ne (Scalar.extui (Scalar.cmpi .eq (BitVec.ofNat 32 (i 1).val) 0#32)) 0#32) = 1#1

/-- It holds exactly at the points 0 and 32: the first tile of each half. -/
theorem isFirst_iff : ∀ t : Fin cfg0.N, isFirst (grid0.coords t) ↔ t.val % 32 = 0 :=
  (by decide +kernel : ∀ t : Fin grid0.N, isFirst (grid0.coords t) ↔ t.val % 32 = 0)

/-- One staging buffer of the block of partial sums, through which its contents are stated. -/
abbrev accView : View sig .tc .vmem S8x128 .f32 := (Memref.whole cc0_stg3_0 : Memref sig .tc .vmem S8x128 .f32).view

/-- Each window's current staging memref at a point, as the pipeline passes it to the body. -/
abbrev mP (t : Fin cfg0.N) : Memref sig .tc .vmem S128x8192 .f32 := win0_0.stage (cfg0.slots t 0)
abbrev hP (t : Fin cfg0.N) : (mP t).IsWhole := hstage0_0 ((cfg0.slots t 0).cast nbuf0_0)
abbrev mRows (t : Fin cfg0.N) : Memref sig .tc .vmem S128x3 .f32 := win0_1.stage (cfg0.slots t 1)
abbrev hRows (t : Fin cfg0.N) : (mRows t).IsWhole := hstage0_1 ((cfg0.slots t 1).cast nbuf0_1)
abbrev mAll (t : Fin cfg0.N) : Memref sig .tc .vmem S8192x3 .f32 := win0_2.stage (cfg0.slots t 2)
abbrev hAll (t : Fin cfg0.N) : (mAll t).IsWhole := hstage0_2 ((cfg0.slots t 2).cast nbuf0_2)
abbrev mAcc (t : Fin cfg0.N) : Memref sig .tc .vmem S8x128 .f32 := win0_3.stage (cfg0.slots t 3)
abbrev hAcc (t : Fin cfg0.N) : (mAcc t).IsWhole := hstage0_3 ((cfg0.slots t 3).cast nbuf0_3)

end Cert.Kernel.Tile

end
-- ==== Proof.BitsRunFirst.lean ====
/-
  The body at the first tile of a half (the second grid coordinate is 0): it stores zeros over the block of partial
  sums, reads them back, adds the tile's total and stores the sum. What the block's buffer ends with is found by
  running the body; the three input buffers are only read.
-/
import proofs.«158081_j41807211660012_1_alg».proof.Proof.BitsStage

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the block's buffer at a first tile, with the run that leaves them:
    the inputs' buffers hold x0 (the tile of P), x1 (its rows of y), x2 (all of y); the block's buffer may hold anything. -/
noncomputable def runFirst (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ (∃ d, owns (c : Thread nD τ) a3 fullShare d)
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__bce_kernel i a0 h0 a1 h1 a2 h2 a3 h3) K } := by
  refine ⟨?_, fun E K => ?run⟩
  case run =>
    simp only [cc0__bce_kernel_eq_skeleton]; unfold cc0__bce_kernel_skel
    unfold owns
    iintro ⟨⟨%f0, %hf0, H0⟩, ⟨%f1, %hf1, H1⟩, ⟨%f2, %hf2, H2⟩, ⟨%d3, %f3, -, H3⟩, Hk⟩
    obtain rfl := h0.eq_unread hf0; obtain rfl := h1.eq_unread hf1; obtain rfl := h2.eq_unread hf2
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

end Cert.Kernel.Tile

end
-- ==== Proof.BitsRunLater.lean ====
/-
  The body at a later tile of a half (the second grid coordinate is not 0): it reads the running block of partial
  sums xo, adds the tile's total and stores the sum.
-/
import proofs.«158081_j41807211660012_1_alg».proof.Proof.BitsRunFirst

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's store leaves in the block's buffer at a later tile, with the run that leaves them: the
    block's buffer holds the running sums xo. -/
noncomputable def runLater (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare xo
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__bce_kernel i a0 h0 a1 h1 a2 h2 a3 h3) K } := by
  refine ⟨?_, fun E K => ?run⟩
  case run =>
    simp only [cc0__bce_kernel_eq_skeleton]; unfold cc0__bce_kernel_skel
    unfold owns
    iintro ⟨⟨%f0, %hf0, H0⟩, ⟨%f1, %hf1, H1⟩, ⟨%f2, %hf2, H2⟩, ⟨%f3, %hf3, H3⟩, Hk⟩
    obtain rfl := h0.eq_unread hf0; obtain rfl := h1.eq_unread hf1; obtain rfl := h2.eq_unread hf2; obtain rfl := h3.eq_unread hf3
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

end Cert.Kernel.Tile

end
-- ==== Proof.BitsAccum.lean ====
/-
  What the block of partial sums holds after each point, by recursion on the point: at the first tile of a half what
  the zeroing run leaves, at a later tile what the adding run leaves over the block the tile before left (the block is
  not written back between: that happens only after the last tile of a half). Then the pipeline's proof data — each
  input buffer at its block, the partial sums at that recursion — and the body's obligation at every point.
  The positions y are handed to the kernel twice (its rows window and its whole window): each window holds half of
  the array's share.
-/
import proofs.«158081_j41807211660012_1_alg».proof.Proof.BitsRunLater

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At a first tile the body's stores cover the block. -/
theorem coverFirst (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) (y : S8x128.Idx) :
    ∃ pc ∈ (runFirst c i a0 h0 a1 h1 a2 h2 a3 h3 hc x0 x1 x2).1, y ∈ pc.1.set :=
  View.cover_of_tiledL (runFirst c i a0 h0 a1 h1 a2 h2 a3 h3 hc x0 x1 x2).1 S8x128.size (by sl_kernel_rfl) y

/-- What a first tile leaves in the block. -/
def outFirst (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) : Vec F S8x128 .f32 :=
  accView.read (Elt F) (accView.writes (Elt F) accView.junk (runFirst c i a0 h0 a1 h1 a2 h2 a3 h3 hc x0 x1 x2).1)

/-- At a later tile the body's store covers the block. -/
theorem coverLater (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) (y : S8x128.Idx) :
    ∃ pc ∈ (runLater c i a0 h0 a1 h1 a2 h2 a3 h3 hc x0 x1 x2 xo).1, y ∈ pc.1.set :=
  View.cover_of_tiledL (runLater c i a0 h0 a1 h1 a2 h2 a3 h3 hc x0 x1 x2 xo).1 S8x128.size (by sl_kernel_rfl) y

/-- What a later tile leaves in the block, over the running sums `xo`. -/
def outLater (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) : Vec F S8x128 .f32 :=
  accView.read (Elt F) (accView.writes (Elt F) accView.junk (runLater c i a0 h0 a1 h1 a2 h2 a3 h3 hc x0 x1 x2 xo).1)

/-- The block of partial sums after the body at position `n`. -/
def accAt (c : Dev nD) : (n : ℕ) → n < cfg0.N → Vec F S8x128 .f32
  | 0, hn => outFirst c (grid0.coords ⟨0, hn⟩) (mP ⟨0, hn⟩) (hP ⟨0, hn⟩) (mRows ⟨0, hn⟩) (hRows ⟨0, hn⟩) (mAll ⟨0, hn⟩) (hAll ⟨0, hn⟩) (mAcc ⟨0, hn⟩) (hAcc ⟨0, hn⟩) ((isFirst_iff ⟨0, hn⟩).mpr (Nat.zero_mod _)) (iblk m c 0 ⟨0, hn⟩) (iblk m c 1 ⟨0, hn⟩) (iblk m c 2 ⟨0, hn⟩)
  | n + 1, hn =>
    if h0 : (n + 1) % 32 = 0 then
      outFirst c (grid0.coords ⟨n + 1, hn⟩) (mP ⟨n + 1, hn⟩) (hP ⟨n + 1, hn⟩) (mRows ⟨n + 1, hn⟩) (hRows ⟨n + 1, hn⟩) (mAll ⟨n + 1, hn⟩) (hAll ⟨n + 1, hn⟩) (mAcc ⟨n + 1, hn⟩) (hAcc ⟨n + 1, hn⟩) ((isFirst_iff ⟨n + 1, hn⟩).mpr h0) (iblk m c 0 ⟨n + 1, hn⟩) (iblk m c 1 ⟨n + 1, hn⟩) (iblk m c 2 ⟨n + 1, hn⟩)
    else
      outLater c (grid0.coords ⟨n + 1, hn⟩) (mP ⟨n + 1, hn⟩) (hP ⟨n + 1, hn⟩) (mRows ⟨n + 1, hn⟩) (hRows ⟨n + 1, hn⟩) (mAll ⟨n + 1, hn⟩) (hAll ⟨n + 1, hn⟩) (mAcc ⟨n + 1, hn⟩) (hAcc ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (accAt c n (Nat.lt_of_succ_lt hn))

/-- At a first tile: the zeroing run's block. -/
theorem accAt_first (c : Dev nD) (t : Fin cfg0.N) (h0 : t.val % 32 = 0) :
    accAt m c t.val t.isLt = outFirst c (grid0.coords t) (mP t) (hP t) (mRows t) (hRows t) (mAll t) (hAll t) (mAcc t) (hAcc t) ((isFirst_iff t).mpr h0) (iblk m c 0 t) (iblk m c 1 t) (iblk m c 2 t) := by
  obtain ⟨n, hn⟩ := t
  cases n with
  | zero => exact rfl
  | succ n => exact (dif_pos h0).trans rfl

/-- At a later tile: the adding run's block over what the tile before left. -/
theorem accAt_later (c : Dev nD) (t : Fin cfg0.N) (h0 : ¬ t.val % 32 = 0) :
    accAt m c t.val t.isLt = outLater c (grid0.coords t) (mP t) (hP t) (mRows t) (hRows t) (mAll t) (hAll t) (mAcc t) (hAcc t) (fun h => h0 ((isFirst_iff t).mp h)) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after_P (c : Dev nD) (t : Fin cfg0.N) : (dats m 0 c).after 0 t = iblk m c 0 t := by dsimp only [dats]
theorem after_rows (c : Dev nD) (t : Fin cfg0.N) : (dats m 0 c).after 1 t = iblk m c 1 t := by dsimp only [dats]
theorem after_all (c : Dev nD) (t : Fin cfg0.N) : (dats m 0 c).after 2 t = iblk m c 2 t := by dsimp only [dats]
theorem after_acc (c : Dev nD) (t : Fin cfg0.N) : (dats m 0 c).after 3 t = accAt m c t.val t.isLt := by dsimp only [dats]

theorem found_P (c : Dev nD) (t : Fin cfg0.N) (d) : (dats m 0 c).before 0 t d = iblk m c 0 t :=
  before_P m (dats m 0 c) (A_eq m c 0) (after_P m c) t d
theorem found_rows (c : Dev nD) (t : Fin cfg0.N) (d) : (dats m 0 c).before 1 t d = iblk m c 1 t :=
  before_rows m (dats m 0 c) (A_eq m c 1) (after_rows m c) t d
theorem found_all (c : Dev nD) (t : Fin cfg0.N) (d) : (dats m 0 c).before 2 t d = iblk m c 2 t :=
  before_all m (dats m 0 c) (A_eq m c 2) (after_all m c) t d

/-- At a later tile the block's buffer holds what the tile before left: it was not written back between. -/
theorem found_acc (c : Dev nD) (t : Fin cfg0.N) (h0 : ¬ t.val % 32 = 0) (d) :
    (dats m 0 c).before 3 t d = accAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mP t) fullShare ((dats m 0 c).before 0 t d))
    ∗ (∃ d, owns (c : Thread nD τ) (mRows t) fullShare ((dats m 0 c).before 1 t d))
    ∗ (∃ d, owns (c : Thread nD τ) (mAll t) fullShare ((dats m 0 c).before 2 t d))
    ∗ (∃ d, owns (c : Thread nD τ) (mAcc t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (mP t) fullShare ((dats m 0 c).after 0 t)
    ∗ owns (c : Thread nD τ) (mRows t) fullShare ((dats m 0 c).after 1 t)
    ∗ owns (c : Thread nD τ) (mAll t) fullShare ((dats m 0 c).after 2 t)
    ∗ owns (c : Thread nD τ) (mAcc t) fullShare ((dats m 0 c).after 3 t))

set_option maxHeartbeats 800000 in
/-- The body at any point: the input buffers hold their blocks; the point is a first tile or a later one, and a later
    one finds the running sums; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_P, found_rows, found_all]
  rw [show (dats m 0 c).Φ t.succ = (dats m 0 c).Φ t.castSucc from rfl,
    show (dats m 0 c).owesAt () t.succ = (dats m 0 c).owesAt () t.castSucc from rfl,
    after_P, after_rows, after_all, after_acc]
  have hN : t.val < 64 := lt_of_lt_of_eq t.isLt (show cfg0.N = 64 from N_0)
  by_cases h0 : t.val % 32 = 0
  · rw [accAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _)
  · rw [accAt_later m c t h0]
    simp only [found_acc m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (fun h => h0 ((isFirst_iff t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.BitsRegion.lean ====
/-
  The whole run. Core `c` starts with every array at its launch contents; the kernel leaves the 16 x 128 array of
  partial sums at what its two write-backs put there and every other array as it was; the eight host lines after it
  then compute the scalar result from that array.
  The positions y are read through two windows, so on entry the array's ownership is halved between them and on
  exit the halves are joined again (both windows are inputs: the array still holds its launch contents).
-/
import proofs.«158081_j41807211660012_1_alg».proof.Proof.BitsAccum
import Idealize.ShloMosaic.Lib.Pipeline.RegionsLoop
import Idealize.ShloMosaic.Lib.Pipeline.FrameSuffix

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.SL.BI (bigSepL bigSep_eq_bigSepL_of_eq bigSep_congr)

variable (m : (ℓ : Loc nD τ sig) → Buf (Elt F) ℓ) (ρ : Dev nD → PrngReg)

/-! ## The arrays' contents between the segments -/

/-- At launch. -/
abbrev W0 : Dev nD → Valuation τ sig (Elt F) := fun c b => (s₀ m ρ).mem ((c : Dev nD), b)

/-- After the kernel: the partial sums' array at what the write-backs left, the rest as launched. -/
def W1 (c : Dev nD) : Valuation τ sig (Elt F) :=
  Function.update (W0 m ρ c) (Proc.devRef .tc (Pipeline.arrRef spec0 3)) ((dats m 0 c).arrAt 3 cfg0.N)

/-- After the host lines. -/
abbrev W2 : Dev nD → Valuation τ sig (Elt F) := fun c => StableHlo.after hostOps1 (W1 m ρ c)

theorem W1_sums (c : Dev nD) : W1 m ρ c (Proc.devRef .tc main_v0) = (dats m 0 c).arrAt 3 cfg0.N := by
  unfold W1; exact Function.update_self ..

theorem W1_other (c : Dev nD) (b : Ref sig .tc) (hb : b ≠ main_v0) : W1 m ρ c (Proc.devRef .tc b) = W0 m ρ c (Proc.devRef .tc b) := by
  unfold W1; exact Function.update_of_ne (StableHlo.devRef_ne_of_ne hb) ..

/-! ## The kernel's arrays, window by window -/

/-- The pipeline's arrays: P whole, each half of y's ownership, the partial sums whole. -/
theorem arrays_form (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0) ∗ (((c.tc : Thread nD τ).loc main_arg1) ↦{fullShare.left} G 1)
          ∗ (((c.tc : Thread nD τ).loc main_arg1) ↦{fullShare.right} G 2) ∗ (((c.tc : Thread nD τ).loc main_v0) ↦{fullShare} G 3)) := by
  unfold Dat.arrays
  rw [bigSep_W0, (arr_whole0 0).set_eq_univ, (arr_whole0 1).set_eq_univ, (arr_whole0 3).set_eq_univ]
  rfl

/-- The distinct arrays behind the four windows. -/
theorem arrBufs_form (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄)
      = iprop((((c.tc : Thread nD τ).loc main_arg0) ↦{fullShare} X main_arg0) ∗ (((c.tc : Thread nD τ).loc main_arg1) ↦{fullShare} X main_arg1)
          ∗ (((c.tc : Thread nD τ).loc main_v0) ↦{fullShare} X main_v0)) := by
  unfold Pipeline.arrBufs
  exact bigSep_eq_bigSepL_of_eq [main_arg0, main_arg1, main_v0] (by decide) (by decide) _

/-- The inputs' arrays are never written. -/
theorem arr_P (c : Dev nD) (n : ℕ) : (dats m 0 c).arrAt 0 n = V m c main_arg0 := ((dats m 0 c).arrAt_in 0 rfl n).trans (A_eq m c 0)
theorem arr_rows (c : Dev nD) (n : ℕ) : (dats m 0 c).arrAt 1 n = V m c main_arg1 := ((dats m 0 c).arrAt_in 1 rfl n).trans (A_eq m c 1)
theorem arr_all (c : Dev nD) (n : ℕ) : (dats m 0 c).arrAt 2 n = V m c main_arg1 := ((dats m 0 c).arrAt_in 2 rfl n).trans (A_eq m c 2)

/-- ENTRY: the launch contents held whole give the pipeline its arrays (y's ownership halved) and the rest. -/
theorem entry_split (c : Dev nD) :
    (StableHlo.held (c : Thread nD τ) (Pipeline.ucRefs τ sig) (W0 m ρ c) : sProp 𝕄)
      ⊢ iprop((dats m 0 c).arrays ((dats m 0 c).arrAt · 0) ∗ Pipeline.unscopedRest spec0 c (V m c)) := by
  rw [← Pipeline.unscopedBufs_held, Pipeline.unscopedBufs_split₀ cfgs 0 winFacts₀0.arr_unscoped c]
  refine sep_mono ?_ .rfl
  rw [arrays_form, arrBufs_form]
  iintro ⟨H0, H1, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  iexact H3

/-- EXIT: the pipeline's arrays after the last point (y's halves joined) and the rest are the contents `W1` held whole. -/
theorem exit_join (c : Dev nD) :
    iprop((dats m 0 c).arrays ((dats m 0 c).arrAt · cfg0.N) ∗ Pipeline.unscopedRest spec0 c (V m c))
      ⊢ (StableHlo.held (c : Thread nD τ) (Pipeline.ucRefs τ sig) (W1 m ρ c) : sProp 𝕄) := by
  rw [← Pipeline.unscopedBufs_held, Pipeline.unscopedBufs_split₀ cfgs 0 winFacts₀0.arr_unscoped c]
  refine sep_mono ?_ (Entails.of_eq ?_)
  · rw [arrays_form, arrBufs_form]
    rw [arr_P, arr_rows, arr_all, W1_sums, W1_other m ρ c main_arg0 (by decide), W1_other m ρ c main_arg1 (by decide)]
    iintro ⟨H0, H1l, H1r, H3⟩
    isplitl [H0]; · iexact H0
    isplitl [H1l H1r]
    · iapply (pointsTo_share (PosShare.mem_left_op_right fullShare)).2
      isplitl [H1l] <;> iassumption
    iexact H3
  · unfold Pipeline.unscopedRest
    refine bigSep_congr fun b hb => ?_
    have hne : b ≠ main_v0 := fun e => (Finset.mem_sdiff.mp hb).2 (Finset.mem_image.mpr ⟨3, Finset.mem_univ _, e ▸ rfl⟩)
    dsimp only
    rw [W1_other m ρ c b hne]

/-! ## The segments -/

abbrev adm : (p : Fin 1) → (pcfgs (F := F) p).Adm := fun p => (cfgs p).toPCfg_adm

/-- The one pipeline's proof data. -/
def pdats : (p : Fin 1) → (c : Dev nD) → Dat τ (Elt F) Unit ℕ (UR sig nD τ) ℕ (Pipeline.pin (pcfgs (F := F)) adm p) c
  | ⟨0, _⟩ => fun c => dats m 0 c

abbrev 𝒱₀ : Variants := Variants.none
/-- No core owes another anything. -/
abbrev L : GSem nD τ sig → Finset Unit := fun _ => ∅
abbrev lv : GSem nD τ sig → Unit → ℕ := fun _ _ => 0
/-- What rides beside the arrays: the generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host lines after the kernel, from `W1`. -/
abbrev tail : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

set_option backward.isDefEq.respectTransparency.types false in
/-- The kernel region: entered with every array at its launch contents, left with them at `W1`. -/
def reg : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main: the kernel, then the host lines. -/
abbrev segs : List (Pipeline.Seg (pcfgs (F := F)) adm (pdats m) () defs₀ 𝒱₀ L lv) :=
  [ .region (reg m ρ), .host (tail m ρ) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (W2 m ρ c) ∗ ∃ r, prngReg c r)

set_option backward.isDefEq.respectTransparency.types false in
/-- THE RUN: from any memory with zero counters every weakly fair execution of @main ends, without a fault, with every
    array at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun c =>
      (show iprop(StableHlo.held (c : Thread nD τ) (Pipeline.ucRefs τ sig) (W2 m ρ c) ∗ R c)
          ⊢ iprop(Tend m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

end Cert.Kernel.Tile

end
-- ==== Proof.BitsFrame.lean ====
/-
  What the run leaves, read off its last contents: the two argument arrays are as launched (no host line writes them
  and the kernel only reads them); the scalar result is the host lines' function of the 16 x 128 array of partial
  sums; that array's rows 0-7 and 8-15 are the blocks the two halves wrote back after their last tiles; and what a
  tile leaves in the block is the accumulating store's value over the three input blocks.
-/
import proofs.«158081_j41807211660012_1_alg».proof.Proof.BitsRegion
import Idealize.ShloMosaic.Lib.Pipeline.Value

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments and the result after the host lines -/

theorem hostOps1_keeps (b : Ref sig .tc) (h0 : b ≠ main_v1) (h1 : b ≠ main_v2) (h2 : b ≠ main_v3) (h3 : b ≠ main_v4) (h4 : b ≠ main_v5)
    (h5 : b ≠ main_v6) (h6 : b ≠ main_cst) (h7 : b ≠ main_v7) (X : Valuation τ sig (Elt F)) :
    StableHlo.after hostOps1 X (Proc.devRef .tc b) = X (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- P ends as launched. -/
theorem W2_P (c : Dev nD) : W2 m ρ c (Proc.devRef .tc main_arg0) = m ((c.tc : Thread nD τ).loc main_arg0) :=
  (hostOps1_keeps main_arg0 (by decide) (by decide) (by decide) (by decide) (by decide) (by decide) (by decide) (by decide) _).trans
    ((W1_other m ρ c main_arg0 (by decide)).trans rfl)

/-- y ends as launched. -/
theorem W2_Y (c : Dev nD) : W2 m ρ c (Proc.devRef .tc main_arg1) = m ((c.tc : Thread nD τ).loc main_arg1) :=
  (hostOps1_keeps main_arg1 (by decide) (by decide) (by decide) (by decide) (by decide) (by decide) (by decide) (by decide) _).trans
    ((W1_other m ρ c main_arg1 (by decide)).trans rfl)

/-- The host lines after the kernel, as one function of the array of partial sums: entry (0,0) plus entry (8,0),
    negated, divided by 2²⁶. -/
def finish (A : FVec F S16x128 .f32) : FVec F S_ .f32 :=
  Host.divf (Host.negf (addf
      (shapeCast S_ (extractStridedSlice S1x1 ![0, 0] A slices_S16x128_S1x1_0_0) shapeCasts_S1x1_S_)
      (shapeCast S_ (extractStridedSlice S1x1 ![8, 0] A slices_S16x128_S1x1_8_0) shapeCasts_S1x1_S_)))
    (constant (F := F) S_ .f32 0x4C800000#32)

/-- The result buffer ends at that function of what the kernel left. -/
theorem W2_result (c : Dev nD) : W2 m ρ c (Proc.devRef .tc main_v7) = finish ((dats m 0 c).arrAt 3 cfg0.N) := by
  show StableHlo.after hostOps1 _ (Proc.devRef .tc main_v7) = _
  after_results
  rw [W1_sums]
  rfl

/-- THE FRAME: every execution ends, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_P m ρ c), (h c _ (mem_uc main_arg1 (by decide))).trans (W2_Y m ρ c)⟩) (run_all m ρ)

/-- THE RUN WITH ITS RESULT NAMED. -/
theorem run_result : θ_run defs (onTc (τ := τ) (main (F := F))) ⟨m, fun _ => 0, ρ⟩ (fun r => ∀ c : Dev nD,
      r.2.mem ((c.tc : Thread nD τ).loc main_v7) = finish ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v7 (by decide))).trans (W2_result m ρ c),
     (h c _ (mem_uc main_arg0 (by decide))).trans (W2_P m ρ c), (h c _ (mem_uc main_arg1 (by decide))).trans (W2_Y m ρ c)⟩) (run_all m ρ)

/-! ## What a tile leaves in the block, as the store's value -/

theorem zero2 : (![0, 0] : Fin 2 → Nat) = fun _ => 0 := by
  funext a; match a with | ⟨0, _⟩ => rfl | ⟨1, _⟩ => rfl

/-- A first tile: the store's value over the zeros just stored. -/
theorem outFirst_eq (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) :
    outFirst c i a0 h0 a1 h1 a2 h2 a3 h3 hc x0 x1 x2 = k0_pay1 (k0_pay5 x1 x2 x0) (k0_pay6 x1 x2 x0) (k0_pay2 (F := F)) := by
  unfold outFirst
  rw [View.read_writes_eq_canon _ _ _ (coverFirst c i a0 h0 a1 h1 a2 h2 a3 h3 hc x0 x1 x2)]
  unfold runFirst
  dsimp only
  sl_unfold_words
  rw [View.canon_cons_unit_zero zero2, View.readCov_unit_zero _ zero2]
  simp only [View.readAt_eq_ld, h0.read_unread, h1.read_unread, h2.read_unread,
    View.ld_unit_zero (S := S128x8192) zero2, View.ld_unit_zero (S := S128x3) zero2, View.ld_unit_zero (S := S8192x3) zero2]

/-- A later tile: the store's value over the running sums. -/
theorem outLater_eq (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) :
    outLater c i a0 h0 a1 h1 a2 h2 a3 h3 hc x0 x1 x2 xo = k0_pay1 (k0_pay5 x1 x2 x0) (k0_pay6 x1 x2 x0) xo := by
  unfold outLater
  rw [View.read_writes_eq_canon _ _ _ (coverLater c i a0 h0 a1 h1 a2 h2 a3 h3 hc x0 x1 x2 xo)]
  unfold runLater
  dsimp only
  sl_unfold_words
  rw [View.canon_unit_zero zero2]
  simp only [View.readAt_eq_ld, h0.read_unread, h1.read_unread, h2.read_unread, h3.read_unread,
    View.ld_unit_zero (S := S128x8192) zero2, View.ld_unit_zero (S := S128x3) zero2, View.ld_unit_zero (S := S8192x3) zero2,
    View.ld_unit_zero (S := S8x128) zero2]

/-! ## The block indices, decided over the 64 points -/

/-- The tile of P and the tile's rows of y at point t are block t. -/
theorem idxP : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idxRows : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- All of y is block (0, 0). -/
theorem idxAll : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The block of partial sums at point t is block t / 32. -/
theorem idxAcc : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

/-- Two points that write the block back write different blocks. -/
theorem disjoint_acc : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (by
    have h1 := (flush0_3 t).mp hf
    have h2 := (flush0_3 t').mp hf'
    have h3 : win0_3.index t (0 : Fin 2) = win0_3.index t' (0 : Fin 2) := congrFun h 0
    rw [(idxAcc t).1, (idxAcc t').1] at h3
    exact Fin.ext (by omega))

/-- The array of partial sums after the run, under the block a writing point wrote: what that point's body left. -/
theorem sums_at (c : Dev nD) (t : Fin cfg0.N) (hf : (cfg0.win 3).flush t = true) (y : S8x128.Idx) :
    (dats m 0 c).arrAt 3 cfg0.N (((cfg0.win 3).blk t).view.emb y) = accAt m c t.val t.isLt y := by
  rw [(dats m 0 c).arrAt_emb_eq_flushed 3 disjoint_acc t hf y]
  show (cfg0.win 3).cut (grid0.coords t) ((dats m 0 c).after 3 t) y = _
  rw [after_acc]
  rfl

end Cert.Kernel.Tile

end
-- ==== Proof.IdealStage.lean ====
/-
  The kernel walks a 2 x 32 grid of row tiles: point t = 32 a + b handles the 128 rows 128 t .. 128 t + 127 of the
  8192 x 8192 matrix P (window 0), the same 128 rows of the 8192 x 3 positions y (window 1), all of y (window 2, the
  same array again), and adds the tile's total into an 8 x 128 block of partial sums (window 3) that belongs to the
  half a: the block is zeroed when b = 0 and written back after b = 31.
  This module names what each input window's staging buffer holds at a point (the block of its array there) and
  decides, over the 64 points, where the zeroing branch is taken.
-/
import proofs.«158081_j41807211660012_1_alg».proof.Proof.Gen.KernelIdeal.Launch
import proofs.«158081_j41807211660012_1_alg».proof.Proof.Gen.KernelIdeal.Skeleton
import proofs.«158081_j41807211660012_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The arrays as the kernel finds them: the launch memory (nothing runs before the kernel). -/
abbrev V (c : Dev nD) (b : Ref sig .tc) : Buf (Elt F) ((c : Thread nD τ).loc b) := m ((c : Thread nD τ).loc b)

/-- Window `w`'s block at point `t`: the rows of its array that the point's index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of P is in its buffer at every point (it is fetched at every point). -/
theorem before_P {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The tile's 128 rows of y are in their buffer at every point. -/
theorem before_rows {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- All of y is in its buffer at every point: fetched once, its index never moves, and the body only reads it. -/
theorem before_all {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The zeroing branch's condition: the second grid coordinate is 0. -/
abbrev isFirst (i : grid0.Coords) : Prop := (Scalar.cmpi .ne (Scalar.extui (Scalar.cmpi .eq (BitVec.ofNat 32 (i 1).val) 0#32)) 0#32) = 1#1

/-- It holds exactly at the points 0 and 32: the first tile of each half. -/
theorem isFirst_iff : ∀ t : Fin cfg0.N, isFirst (grid0.coords t) ↔ t.val % 32 = 0 :=
  (by decide +kernel : ∀ t : Fin grid0.N, isFirst (grid0.coords t) ↔ t.val % 32 = 0)

/-- One staging buffer of the block of partial sums, through which its contents are stated. -/
abbrev accView : View sig .tc .vmem S8x128 .f32 := (Memref.whole cc0_stg3_0 : Memref sig .tc .vmem S8x128 .f32).view

/-- Each window's current staging memref at a point, as the pipeline passes it to the body. -/
abbrev mP (t : Fin cfg0.N) : Memref sig .tc .vmem S128x8192 .f32 := win0_0.stage (cfg0.slots t 0)
abbrev hP (t : Fin cfg0.N) : (mP t).IsWhole := hstage0_0 ((cfg0.slots t 0).cast nbuf0_0)
abbrev mRows (t : Fin cfg0.N) : Memref sig .tc .vmem S128x3 .f32 := win0_1.stage (cfg0.slots t 1)
abbrev hRows (t : Fin cfg0.N) : (mRows t).IsWhole := hstage0_1 ((cfg0.slots t 1).cast nbuf0_1)
abbrev mAll (t : Fin cfg0.N) : Memref sig .tc .vmem S8192x3 .f32 := win0_2.stage (cfg0.slots t 2)
abbrev hAll (t : Fin cfg0.N) : (mAll t).IsWhole := hstage0_2 ((cfg0.slots t 2).cast nbuf0_2)
abbrev mAcc (t : Fin cfg0.N) : Memref sig .tc .vmem S8x128 .f32 := win0_3.stage (cfg0.slots t 3)
abbrev hAcc (t : Fin cfg0.N) : (mAcc t).IsWhole := hstage0_3 ((cfg0.slots t 3).cast nbuf0_3)

end Cert.KernelIdeal.Tile

end
-- ==== Proof.IdealRunFirst.lean ====
/-
  The body at the first tile of a half (the second grid coordinate is 0): it stores zeros over the block of partial
  sums, reads them back, adds the tile's total and stores the sum. What the block's buffer ends with is found by
  running the body; the three input buffers are only read.
-/
import proofs.«158081_j41807211660012_1_alg».proof.Proof.IdealStage

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the block's buffer at a first tile, with the run that leaves them:
    the inputs' buffers hold x0 (the tile of P), x1 (its rows of y), x2 (all of y); the block's buffer may hold anything. -/
noncomputable def runFirst (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ (∃ d, owns (c : Thread nD τ) a3 fullShare d)
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__bce_kernel i a0 h0 a1 h1 a2 h2 a3 h3) K } := by
  refine ⟨?_, fun E K => ?run⟩
  case run =>
    simp only [cc0__bce_kernel_eq_skeleton]; unfold cc0__bce_kernel_skel
    unfold owns
    iintro ⟨⟨%f0, %hf0, H0⟩, ⟨%f1, %hf1, H1⟩, ⟨%f2, %hf2, H2⟩, ⟨%d3, %f3, -, H3⟩, Hk⟩
    obtain rfl := h0.eq_unread hf0; obtain rfl := h1.eq_unread hf1; obtain rfl := h2.eq_unread hf2
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

end Cert.KernelIdeal.Tile

end
-- ==== Proof.IdealRunLater.lean ====
/-
  The body at a later tile of a half (the second grid coordinate is not 0): it reads the running block of partial
  sums xo, adds the tile's total and stores the sum.
-/
import proofs.«158081_j41807211660012_1_alg».proof.Proof.IdealRunFirst

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's store leaves in the block's buffer at a later tile, with the run that leaves them: the
    block's buffer holds the running sums xo. -/
noncomputable def runLater (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare xo
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__bce_kernel i a0 h0 a1 h1 a2 h2 a3 h3) K } := by
  refine ⟨?_, fun E K => ?run⟩
  case run =>
    simp only [cc0__bce_kernel_eq_skeleton]; unfold cc0__bce_kernel_skel
    unfold owns
    iintro ⟨⟨%f0, %hf0, H0⟩, ⟨%f1, %hf1, H1⟩, ⟨%f2, %hf2, H2⟩, ⟨%f3, %hf3, H3⟩, Hk⟩
    obtain rfl := h0.eq_unread hf0; obtain rfl := h1.eq_unread hf1; obtain rfl := h2.eq_unread hf2; obtain rfl := h3.eq_unread hf3
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

end Cert.KernelIdeal.Tile

end
-- ==== Proof.IdealAccum.lean ====
/-
  What the block of partial sums holds after each point, by recursion on the point: at the first tile of a half what
  the zeroing run leaves, at a later tile what the adding run leaves over the block the tile before left (the block is
  not written back between: that happens only after the last tile of a half). Then the pipeline's proof data — each
  input buffer at its block, the partial sums at that recursion — and the body's obligation at every point.
  The positions y are handed to the kernel twice (its rows window and its whole window): each window holds half of
  the array's share.
-/
import proofs.«158081_j41807211660012_1_alg».proof.Proof.IdealRunLater

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At a first tile the body's stores cover the block. -/
theorem coverFirst (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) (y : S8x128.Idx) :
    ∃ pc ∈ (runFirst c i a0 h0 a1 h1 a2 h2 a3 h3 hc x0 x1 x2).1, y ∈ pc.1.set :=
  View.cover_of_tiledL (runFirst c i a0 h0 a1 h1 a2 h2 a3 h3 hc x0 x1 x2).1 S8x128.size (by sl_kernel_rfl) y

/-- What a first tile leaves in the block. -/
def outFirst (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) : Vec F S8x128 .f32 :=
  accView.read (Elt F) (accView.writes (Elt F) accView.junk (runFirst c i a0 h0 a1 h1 a2 h2 a3 h3 hc x0 x1 x2).1)

/-- At a later tile the body's store covers the block. -/
theorem coverLater (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) (y : S8x128.Idx) :
    ∃ pc ∈ (runLater c i a0 h0 a1 h1 a2 h2 a3 h3 hc x0 x1 x2 xo).1, y ∈ pc.1.set :=
  View.cover_of_tiledL (runLater c i a0 h0 a1 h1 a2 h2 a3 h3 hc x0 x1 x2 xo).1 S8x128.size (by sl_kernel_rfl) y

/-- What a later tile leaves in the block, over the running sums `xo`. -/
def outLater (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) : Vec F S8x128 .f32 :=
  accView.read (Elt F) (accView.writes (Elt F) accView.junk (runLater c i a0 h0 a1 h1 a2 h2 a3 h3 hc x0 x1 x2 xo).1)

/-- The block of partial sums after the body at position `n`. -/
def accAt (c : Dev nD) : (n : ℕ) → n < cfg0.N → Vec F S8x128 .f32
  | 0, hn => outFirst c (grid0.coords ⟨0, hn⟩) (mP ⟨0, hn⟩) (hP ⟨0, hn⟩) (mRows ⟨0, hn⟩) (hRows ⟨0, hn⟩) (mAll ⟨0, hn⟩) (hAll ⟨0, hn⟩) (mAcc ⟨0, hn⟩) (hAcc ⟨0, hn⟩) ((isFirst_iff ⟨0, hn⟩).mpr (Nat.zero_mod _)) (iblk m c 0 ⟨0, hn⟩) (iblk m c 1 ⟨0, hn⟩) (iblk m c 2 ⟨0, hn⟩)
  | n + 1, hn =>
    if h0 : (n + 1) % 32 = 0 then
      outFirst c (grid0.coords ⟨n + 1, hn⟩) (mP ⟨n + 1, hn⟩) (hP ⟨n + 1, hn⟩) (mRows ⟨n + 1, hn⟩) (hRows ⟨n + 1, hn⟩) (mAll ⟨n + 1, hn⟩) (hAll ⟨n + 1, hn⟩) (mAcc ⟨n + 1, hn⟩) (hAcc ⟨n + 1, hn⟩) ((isFirst_iff ⟨n + 1, hn⟩).mpr h0) (iblk m c 0 ⟨n + 1, hn⟩) (iblk m c 1 ⟨n + 1, hn⟩) (iblk m c 2 ⟨n + 1, hn⟩)
    else
      outLater c (grid0.coords ⟨n + 1, hn⟩) (mP ⟨n + 1, hn⟩) (hP ⟨n + 1, hn⟩) (mRows ⟨n + 1, hn⟩) (hRows ⟨n + 1, hn⟩) (mAll ⟨n + 1, hn⟩) (hAll ⟨n + 1, hn⟩) (mAcc ⟨n + 1, hn⟩) (hAcc ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (accAt c n (Nat.lt_of_succ_lt hn))

/-- At a first tile: the zeroing run's block. -/
theorem accAt_first (c : Dev nD) (t : Fin cfg0.N) (h0 : t.val % 32 = 0) :
    accAt m c t.val t.isLt = outFirst c (grid0.coords t) (mP t) (hP t) (mRows t) (hRows t) (mAll t) (hAll t) (mAcc t) (hAcc t) ((isFirst_iff t).mpr h0) (iblk m c 0 t) (iblk m c 1 t) (iblk m c 2 t) := by
  obtain ⟨n, hn⟩ := t
  cases n with
  | zero => exact rfl
  | succ n => exact (dif_pos h0).trans rfl

/-- At a later tile: the adding run's block over what the tile before left. -/
theorem accAt_later (c : Dev nD) (t : Fin cfg0.N) (h0 : ¬ t.val % 32 = 0) :
    accAt m c t.val t.isLt = outLater c (grid0.coords t) (mP t) (hP t) (mRows t) (hRows t) (mAll t) (hAll t) (mAcc t) (hAcc t) (fun h => h0 ((isFirst_iff t).mp h)) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after_P (c : Dev nD) (t : Fin cfg0.N) : (dats m 0 c).after 0 t = iblk m c 0 t := by dsimp only [dats]
theorem after_rows (c : Dev nD) (t : Fin cfg0.N) : (dats m 0 c).after 1 t = iblk m c 1 t := by dsimp only [dats]
theorem after_all (c : Dev nD) (t : Fin cfg0.N) : (dats m 0 c).after 2 t = iblk m c 2 t := by dsimp only [dats]
theorem after_acc (c : Dev nD) (t : Fin cfg0.N) : (dats m 0 c).after 3 t = accAt m c t.val t.isLt := by dsimp only [dats]

theorem found_P (c : Dev nD) (t : Fin cfg0.N) (d) : (dats m 0 c).before 0 t d = iblk m c 0 t :=
  before_P m (dats m 0 c) (A_eq m c 0) (after_P m c) t d
theorem found_rows (c : Dev nD) (t : Fin cfg0.N) (d) : (dats m 0 c).before 1 t d = iblk m c 1 t :=
  before_rows m (dats m 0 c) (A_eq m c 1) (after_rows m c) t d
theorem found_all (c : Dev nD) (t : Fin cfg0.N) (d) : (dats m 0 c).before 2 t d = iblk m c 2 t :=
  before_all m (dats m 0 c) (A_eq m c 2) (after_all m c) t d

/-- At a later tile the block's buffer holds what the tile before left: it was not written back between. -/
theorem found_acc (c : Dev nD) (t : Fin cfg0.N) (h0 : ¬ t.val % 32 = 0) (d) :
    (dats m 0 c).before 3 t d = accAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mP t) fullShare ((dats m 0 c).before 0 t d))
    ∗ (∃ d, owns (c : Thread nD τ) (mRows t) fullShare ((dats m 0 c).before 1 t d))
    ∗ (∃ d, owns (c : Thread nD τ) (mAll t) fullShare ((dats m 0 c).before 2 t d))
    ∗ (∃ d, owns (c : Thread nD τ) (mAcc t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (mP t) fullShare ((dats m 0 c).after 0 t)
    ∗ owns (c : Thread nD τ) (mRows t) fullShare ((dats m 0 c).after 1 t)
    ∗ owns (c : Thread nD τ) (mAll t) fullShare ((dats m 0 c).after 2 t)
    ∗ owns (c : Thread nD τ) (mAcc t) fullShare ((dats m 0 c).after 3 t))

set_option maxHeartbeats 800000 in
/-- The body at any point: the input buffers hold their blocks; the point is a first tile or a later one, and a later
    one finds the running sums; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_P, found_rows, found_all]
  rw [show (dats m 0 c).Φ t.succ = (dats m 0 c).Φ t.castSucc from rfl,
    show (dats m 0 c).owesAt () t.succ = (dats m 0 c).owesAt () t.castSucc from rfl,
    after_P, after_rows, after_all, after_acc]
  have hN : t.val < 64 := lt_of_lt_of_eq t.isLt (show cfg0.N = 64 from N_0)
  by_cases h0 : t.val % 32 = 0
  · rw [accAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _)
  · rw [accAt_later m c t h0]
    simp only [found_acc m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (fun h => h0 ((isFirst_iff t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.IdealRegion.lean ====
/-
  The whole run. Core `c` starts with every array at its launch contents; the kernel leaves the 16 x 128 array of
  partial sums at what its two write-backs put there and every other array as it was; the eight host lines after it
  then compute the scalar result from that array.
  The positions y are read through two windows, so on entry the array's ownership is halved between them and on
  exit the halves are joined again (both windows are inputs: the array still holds its launch contents).
-/
import proofs.«158081_j41807211660012_1_alg».proof.Proof.IdealAccum
import Idealize.ShloMosaic.Lib.Pipeline.RegionsLoop
import Idealize.ShloMosaic.Lib.Pipeline.FrameSuffix

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.SL.BI (bigSepL bigSep_eq_bigSepL_of_eq bigSep_congr)

variable (m : (ℓ : Loc nD τ sig) → Buf (Elt F) ℓ) (ρ : Dev nD → PrngReg)

/-! ## The arrays' contents between the segments -/

/-- At launch. -/
abbrev W0 : Dev nD → Valuation τ sig (Elt F) := fun c b => (s₀ m ρ).mem ((c : Dev nD), b)

/-- After the kernel: the partial sums' array at what the write-backs left, the rest as launched. -/
def W1 (c : Dev nD) : Valuation τ sig (Elt F) :=
  Function.update (W0 m ρ c) (Proc.devRef .tc (Pipeline.arrRef spec0 3)) ((dats m 0 c).arrAt 3 cfg0.N)

/-- After the host lines. -/
abbrev W2 : Dev nD → Valuation τ sig (Elt F) := fun c => StableHlo.after hostOps1 (W1 m ρ c)

theorem W1_sums (c : Dev nD) : W1 m ρ c (Proc.devRef .tc main_v0) = (dats m 0 c).arrAt 3 cfg0.N := by
  unfold W1; exact Function.update_self ..

theorem W1_other (c : Dev nD) (b : Ref sig .tc) (hb : b ≠ main_v0) : W1 m ρ c (Proc.devRef .tc b) = W0 m ρ c (Proc.devRef .tc b) := by
  unfold W1; exact Function.update_of_ne (StableHlo.devRef_ne_of_ne hb) ..

/-! ## The kernel's arrays, window by window -/

/-- The pipeline's arrays: P whole, each half of y's ownership, the partial sums whole. -/
theorem arrays_form (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0) ∗ (((c.tc : Thread nD τ).loc main_arg1) ↦{fullShare.left} G 1)
          ∗ (((c.tc : Thread nD τ).loc main_arg1) ↦{fullShare.right} G 2) ∗ (((c.tc : Thread nD τ).loc main_v0) ↦{fullShare} G 3)) := by
  unfold Dat.arrays
  rw [bigSep_W0, (arr_whole0 0).set_eq_univ, (arr_whole0 1).set_eq_univ, (arr_whole0 3).set_eq_univ]
  rfl

/-- The distinct arrays behind the four windows. -/
theorem arrBufs_form (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄)
      = iprop((((c.tc : Thread nD τ).loc main_arg0) ↦{fullShare} X main_arg0) ∗ (((c.tc : Thread nD τ).loc main_arg1) ↦{fullShare} X main_arg1)
          ∗ (((c.tc : Thread nD τ).loc main_v0) ↦{fullShare} X main_v0)) := by
  unfold Pipeline.arrBufs
  exact bigSep_eq_bigSepL_of_eq [main_arg0, main_arg1, main_v0] (by decide) (by decide) _

/-- The inputs' arrays are never written. -/
theorem arr_P (c : Dev nD) (n : ℕ) : (dats m 0 c).arrAt 0 n = V m c main_arg0 := ((dats m 0 c).arrAt_in 0 rfl n).trans (A_eq m c 0)
theorem arr_rows (c : Dev nD) (n : ℕ) : (dats m 0 c).arrAt 1 n = V m c main_arg1 := ((dats m 0 c).arrAt_in 1 rfl n).trans (A_eq m c 1)
theorem arr_all (c : Dev nD) (n : ℕ) : (dats m 0 c).arrAt 2 n = V m c main_arg1 := ((dats m 0 c).arrAt_in 2 rfl n).trans (A_eq m c 2)

/-- ENTRY: the launch contents held whole give the pipeline its arrays (y's ownership halved) and the rest. -/
theorem entry_split (c : Dev nD) :
    (StableHlo.held (c : Thread nD τ) (Pipeline.ucRefs τ sig) (W0 m ρ c) : sProp 𝕄)
      ⊢ iprop((dats m 0 c).arrays ((dats m 0 c).arrAt · 0) ∗ Pipeline.unscopedRest spec0 c (V m c)) := by
  rw [← Pipeline.unscopedBufs_held, Pipeline.unscopedBufs_split₀ cfgs 0 winFacts₀0.arr_unscoped c]
  refine sep_mono ?_ .rfl
  rw [arrays_form, arrBufs_form]
  iintro ⟨H0, H1, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  iexact H3

/-- EXIT: the pipeline's arrays after the last point (y's halves joined) and the rest are the contents `W1` held whole. -/
theorem exit_join (c : Dev nD) :
    iprop((dats m 0 c).arrays ((dats m 0 c).arrAt · cfg0.N) ∗ Pipeline.unscopedRest spec0 c (V m c))
      ⊢ (StableHlo.held (c : Thread nD τ) (Pipeline.ucRefs τ sig) (W1 m ρ c) : sProp 𝕄) := by
  rw [← Pipeline.unscopedBufs_held, Pipeline.unscopedBufs_split₀ cfgs 0 winFacts₀0.arr_unscoped c]
  refine sep_mono ?_ (Entails.of_eq ?_)
  · rw [arrays_form, arrBufs_form]
    rw [arr_P, arr_rows, arr_all, W1_sums, W1_other m ρ c main_arg0 (by decide), W1_other m ρ c main_arg1 (by decide)]
    iintro ⟨H0, H1l, H1r, H3⟩
    isplitl [H0]; · iexact H0
    isplitl [H1l H1r]
    · iapply (pointsTo_share (PosShare.mem_left_op_right fullShare)).2
      isplitl [H1l] <;> iassumption
    iexact H3
  · unfold Pipeline.unscopedRest
    refine bigSep_congr fun b hb => ?_
    have hne : b ≠ main_v0 := fun e => (Finset.mem_sdiff.mp hb).2 (Finset.mem_image.mpr ⟨3, Finset.mem_univ _, e ▸ rfl⟩)
    dsimp only
    rw [W1_other m ρ c b hne]

/-! ## The segments -/

abbrev adm : (p : Fin 1) → (pcfgs (F := F) p).Adm := fun p => (cfgs p).toPCfg_adm

/-- The one pipeline's proof data. -/
def pdats : (p : Fin 1) → (c : Dev nD) → Dat τ (Elt F) Unit ℕ (UR sig nD τ) ℕ (Pipeline.pin (pcfgs (F := F)) adm p) c
  | ⟨0, _⟩ => fun c => dats m 0 c

abbrev 𝒱₀ : Variants := Variants.none
/-- No core owes another anything. -/
abbrev L : GSem nD τ sig → Finset Unit := fun _ => ∅
abbrev lv : GSem nD τ sig → Unit → ℕ := fun _ _ => 0
/-- What rides beside the arrays: the generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host lines after the kernel, from `W1`. -/
abbrev tail : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

set_option backward.isDefEq.respectTransparency.types false in
/-- The kernel region: entered with every array at its launch contents, left with them at `W1`. -/
def reg : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main: the kernel, then the host lines. -/
abbrev segs : List (Pipeline.Seg (pcfgs (F := F)) adm (pdats m) () defs₀ 𝒱₀ L lv) :=
  [ .region (reg m ρ), .host (tail m ρ) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (W2 m ρ c) ∗ ∃ r, prngReg c r)

set_option backward.isDefEq.respectTransparency.types false in
/-- THE RUN: from any memory with zero counters every weakly fair execution of @main ends, without a fault, with every
    array at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun c =>
      (show iprop(StableHlo.held (c : Thread nD τ) (Pipeline.ucRefs τ sig) (W2 m ρ c) ∗ R c)
          ⊢ iprop(Tend m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

end Cert.KernelIdeal.Tile

end
-- ==== Proof.IdealFrame.lean ====
/-
  What the run leaves, read off its last contents: the two argument arrays are as launched (no host line writes them
  and the kernel only reads them); the scalar result is the host lines' function of the 16 x 128 array of partial
  sums; that array's rows 0-7 and 8-15 are the blocks the two halves wrote back after their last tiles; and what a
  tile leaves in the block is the accumulating store's value over the three input blocks.
-/
import proofs.«158081_j41807211660012_1_alg».proof.Proof.IdealRegion
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments and the result after the host lines -/

theorem hostOps1_keeps (b : Ref sig .tc) (h0 : b ≠ main_v1) (h1 : b ≠ main_v2) (h2 : b ≠ main_v3) (h3 : b ≠ main_v4) (h4 : b ≠ main_v5)
    (h5 : b ≠ main_v6) (h6 : b ≠ main_cst) (h7 : b ≠ main_v7) (X : Valuation τ sig (Elt F)) :
    StableHlo.after hostOps1 X (Proc.devRef .tc b) = X (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- P ends as launched. -/
theorem W2_P (c : Dev nD) : W2 m ρ c (Proc.devRef .tc main_arg0) = m ((c.tc : Thread nD τ).loc main_arg0) :=
  (hostOps1_keeps main_arg0 (by decide) (by decide) (by decide) (by decide) (by decide) (by decide) (by decide) (by decide) _).trans
    ((W1_other m ρ c main_arg0 (by decide)).trans rfl)

/-- y ends as launched. -/
theorem W2_Y (c : Dev nD) : W2 m ρ c (Proc.devRef .tc main_arg1) = m ((c.tc : Thread nD τ).loc main_arg1) :=
  (hostOps1_keeps main_arg1 (by decide) (by decide) (by decide) (by decide) (by decide) (by decide) (by decide) (by decide) _).trans
    ((W1_other m ρ c main_arg1 (by decide)).trans rfl)

/-- The host lines after the kernel, as one function of the array of partial sums: entry (0,0) plus entry (8,0),
    negated, divided by 2²⁶. -/
def finish (A : FVec F S16x128 .f32) : FVec F S_ .f32 :=
  Host.divf (Host.negf (addf
      (shapeCast S_ (extractStridedSlice S1x1 ![0, 0] A slices_S16x128_S1x1_0_0) shapeCasts_S1x1_S_)
      (shapeCast S_ (extractStridedSlice S1x1 ![8, 0] A slices_S16x128_S1x1_8_0) shapeCasts_S1x1_S_)))
    (constant (F := F) S_ .f32 0x4C800000#32)

/-- The result buffer ends at that function of what the kernel left. -/
theorem W2_result (c : Dev nD) : W2 m ρ c (Proc.devRef .tc main_v7) = finish ((dats m 0 c).arrAt 3 cfg0.N) := by
  show StableHlo.after hostOps1 _ (Proc.devRef .tc main_v7) = _
  after_results
  rw [W1_sums]
  rfl

/-- THE FRAME: every execution ends, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_P m ρ c), (h c _ (mem_uc main_arg1 (by decide))).trans (W2_Y m ρ c)⟩) (run_all m ρ)

/-- THE RUN WITH ITS RESULT NAMED. -/
theorem run_result : θ_run defs (onTc (τ := τ) (main (F := F))) ⟨m, fun _ => 0, ρ⟩ (fun r => ∀ c : Dev nD,
      r.2.mem ((c.tc : Thread nD τ).loc main_v7) = finish ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v7 (by decide))).trans (W2_result m ρ c),
     (h c _ (mem_uc main_arg0 (by decide))).trans (W2_P m ρ c), (h c _ (mem_uc main_arg1 (by decide))).trans (W2_Y m ρ c)⟩) (run_all m ρ)

/-! ## What a tile leaves in the block, as the store's value -/

theorem zero2 : (![0, 0] : Fin 2 → Nat) = fun _ => 0 := by
  funext a; match a with | ⟨0, _⟩ => rfl | ⟨1, _⟩ => rfl

/-- A first tile: the store's value over the zeros just stored. -/
theorem outFirst_eq (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : isFirst i)
    (x0 : Vec F S128x8192 .f32) (x1 : Vec F S128x3 .f32) (x2 : Vec F S8192x3 .f32) :
    outFirst c i a0 h0 a1 h1 a2 h2 a3 h3 hc x0 x1 x2 = k0_pay1 (k0_pay5 x1 x2 x0) (k0_pay6 x1 x2 x0) (k0_pay2 (F := F)) := by
  unfold outFirst
  rw [View.read_writes_eq_canon _ _ _ (coverFirst c i a0 h0 a1 h1 a2 h2 a3 h3 hc x0 x1 x2)]
  unfold runFirst
  dsimp only
  sl_unfold_words
  rw [View.canon_cons_unit_zero zero2, View.readCov_unit_zero _ zero2]
  simp only [View.readAt_eq_ld, h0.read_unread, h1.read_unread, h2.read_unread,
    View.ld_unit_zero (S := S128x8192) zero2, View.ld_unit_zero (S := S128x3) zero2, View.ld_unit_zero (S := S8192x3) zero2]

/-- A later tile: the store's value over the running sums. -/
theorem outLater_eq (c : Dev nD) (i : grid0.Coords) (a0 : Memref sig .tc .vmem S128x8192 .f32) (h0 : a0.IsWhole)
    (a1 : Memref sig .tc .vmem S128x3 .f32) (h1 : a1.IsWhole) (a2 : Memref sig .tc .vmem S8192x3 .f32) (h2 : a2.IsWhole)
    (a3 : Memref sig .tc .vmem S8x128 .f32) (h3 : a3.IsWhole) (hc : ¬ isFirst i)
    (x0 : Vec F S128x8192 .f32) (x1 : Vec F S128x3 .f32) (x2 : Vec F S8192x3 .f32) (xo : Vec F S8x128 .f32) :
    outLater c i a0 h0 a1 h1 a2 h2 a3 h3 hc x0 x1 x2 xo = k0_pay1 (k0_pay5 x1 x2 x0) (k0_pay6 x1 x2 x0) xo := by
  unfold outLater
  rw [View.read_writes_eq_canon _ _ _ (coverLater c i a0 h0 a1 h1 a2 h2 a3 h3 hc x0 x1 x2 xo)]
  unfold runLater
  dsimp only
  sl_unfold_words
  rw [View.canon_unit_zero zero2]
  simp only [View.readAt_eq_ld, h0.read_unread, h1.read_unread, h2.read_unread, h3.read_unread,
    View.ld_unit_zero (S := S128x8192) zero2, View.ld_unit_zero (S := S128x3) zero2, View.ld_unit_zero (S := S8192x3) zero2,
    View.ld_unit_zero (S := S8x128) zero2]

/-! ## The block indices, decided over the 64 points -/

/-- The tile of P and the tile's rows of y at point t are block t. -/
theorem idxP : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idxRows : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- All of y is block (0, 0). -/
theorem idxAll : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The block of partial sums at point t is block t / 32. -/
theorem idxAcc : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

/-- Two points that write the block back write different blocks. -/
theorem disjoint_acc : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (by
    have h1 := (flush0_3 t).mp hf
    have h2 := (flush0_3 t').mp hf'
    have h3 : win0_3.index t (0 : Fin 2) = win0_3.index t' (0 : Fin 2) := congrFun h 0
    rw [(idxAcc t).1, (idxAcc t').1] at h3
    exact Fin.ext (by omega))

/-- The array of partial sums after the run, under the block a writing point wrote: what that point's body left. -/
theorem sums_at (c : Dev nD) (t : Fin cfg0.N) (hf : (cfg0.win 3).flush t = true) (y : S8x128.Idx) :
    (dats m 0 c).arrAt 3 cfg0.N (((cfg0.win 3).blk t).view.emb y) = accAt m c t.val t.isLt y := by
  rw [(dats m 0 c).arrAt_emb_eq_flushed 3 disjoint_acc t hf y]
  show (cfg0.win 3).cut (grid0.coords t) ((dats m 0 c).after 3 t) y = _
  rw [after_acc]
  rfl

end Cert.KernelIdeal.Tile

end
-- ==== Proof.LossSpec.lean ====
/-
  The loss, as mathematics on the extended reals. For points u, v in 3-space the affinity is
  1 / (1 + max (|u|² + |v|² − 2 u·v, 0)); an entry p of P is clipped to [ε, 1]; the entry's term is
  q · log p' + (1 − q) · log (1 + (−p')) with q the affinity and p' the clipped entry; the loss is minus the sum of
  the terms over all 8192 × 8192 entries divided by 2²⁶. The constants are the float words the programs carry.
-/
import Idealize.ShloMosaic.PureOps.Ideal
import Idealize.ShloMosaic.PureOps.Ideal.Laws
import Idealize.ShloMosaic.Lib.ValueIdx

noncomputable section

namespace Cert.PairLoss

open Idealize.ShloMosaic Idealize.ShloMosaic.ValueIdx
open scoped BigOperators

/-- The words 1.0, 2.0, 0.0, ε and 2²⁶. -/
abbrev one : EReal := Ideal.ofBits .f32 0x3F800000#32
abbrev two : EReal := Ideal.ofBits .f32 0x40000000#32
abbrev zero : EReal := Ideal.ofBits .f32 0x00000000#32
abbrev eps : EReal := Ideal.ofBits .f32 0x2B8CBCCC#32
abbrev count : EReal := Ideal.ofBits .f32 0x4C800000#32

/-- The affinity of two points. -/
def affinity (u v : Fin 3 → EReal) : EReal :=
  Ideal.div one (one + max (((∑ k : Fin 3, u k * u k) + ∑ k : Fin 3, v k * v k) - two * ∑ k : Fin 3, u k * v k) zero)

/-- An entry of P clipped to [ε, 1]. -/
def clip (p : EReal) : EReal := min one (max eps p)

/-- One entry's term of the cross entropy. -/
def term (u v : Fin 3 → EReal) (p : EReal) : EReal :=
  affinity u v * Ideal.log (clip p) + (one - affinity u v) * Ideal.log1p (-(clip p))

/-- The term at entry (i, j) of the matrix P for the points Y. -/
def entry (P : (⟨2, ![8192, 8192]⟩ : Shape).Idx → EReal) (Y : (⟨2, ![8192, 3]⟩ : Shape).Idx → EReal) (i j : Fin 8192) : EReal :=
  term (fun k => Y (ix2 i k)) (fun k => Y (ix2 j k)) (P (ix2 i j))

/-- The loss: minus the mean of the terms. -/
def loss (P : (⟨2, ![8192, 8192]⟩ : Shape).Idx → EReal) (Y : (⟨2, ![8192, 3]⟩ : Shape).Idx → EReal) : EReal :=
  -(Ideal.div (∑ i : Fin 8192, ∑ j : Fin 8192, entry P Y i j) count)

/-- 2²⁶ is not zero. -/
theorem count_ne_zero : count ≠ 0 := by
  have h : count = ((67108864 : ℝ) : EReal) := by
    simp [count, Ideal.ofBits, Ideal.ieee, -EReal.coe_mul]; norm_num
  rw [h]; exact_mod_cast (by norm_num : (67108864 : ℝ) ≠ 0)

/-- Dividing by 2²⁶ commutes with negation. -/
theorem div_count_neg (x : EReal) : Ideal.div (-x) count = -(Ideal.div x count) := by
  unfold Ideal.div
  rw [if_neg count_ne_zero, if_neg count_ne_zero, EReal.neg_mul]

/-- A sum over the first `a * b` naturals, cut into `a` runs of `b`. -/
theorem sum_range_mul {M : Type*} [AddCommMonoid M] (f : ℕ → M) (a b : ℕ) :
    ∑ n ∈ Finset.range (a * b), f n = ∑ q ∈ Finset.range a, ∑ r ∈ Finset.range b, f (b * q + r) := by
  induction a with
  | zero => simp
  | succ a ih =>
    rw [Nat.succ_mul, Finset.sum_range_add, ih, Finset.sum_range_succ, Nat.mul_comm a b]

end Cert.PairLoss

end
-- ==== Proof.LibRowSum.lean ====
/-
  A sum along the rows of a matrix, read at one entry.

  The vector unit's sum over axis 1 of an m×n matrix (from a zero accumulator) is, at row `a`, the sum of the
  entries of that row. The companion of the column form (a sum over axis 0), general in the two extents.
-/
import Idealize.ShloMosaic.PureOps.Ideal.Laws
import Idealize.ShloMosaic.Lib.ValueIdx

noncomputable section

namespace LibRowSum

open Idealize.ShloMosaic Idealize.ShloMosaic.ValueIdx
open scoped BigOperators

variable {m n : Nat}

/-- The source index of a row sum: column `k` of row `a`. -/
theorem lift_row (h : (⟨2, ![m, n]⟩ : Shape).Reduces [1] ⟨1, ![m]⟩) (a : Fin m) (k : Fin n) :
    h.lift (ix1 a) k = ix2 a k := by
  funext c
  apply Fin.ext
  match c with
  | ⟨0, _⟩ => rfl
  | ⟨1, _⟩ => rfl

/-- The sum over axis 1 of an m×n matrix at row `a`: the sum along the row. The accumulator hypothesis is the
    equation of the two zero words. -/
theorem multiReduction_add_row (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (a : Fin m) :
    multiReduction .add [1] ⟨1, ![m]⟩ src 0x00000000#32 h hφ hacc (ix1 a) = ∑ k : Fin n, src (ix2 a k) := by
  refine (Ideal.multiReduction_add_single src 0x00000000#32 h hφ hacc (ix1 a)).trans ?_
  show ∑ k : Fin n, src (h.lift (ix1 a) k) = _
  exact Finset.sum_congr rfl fun k _ => congrArg src (lift_row h a k)

end LibRowSum

end
-- ==== Proof.LibPlainOps.lean ====
import Idealize.ShloMosaic.Lib.KernelVsHost
import Idealize.ShloMosaic.Lib.StackMember
import Idealize.ShloMosaic.Lib.ValueLayout

/-!
# Matrix operations read at an index, at the ideal values

General readings, at the extended reals, of the operations a dense layer and a column statistic are made of, each at an
index written with literal coordinates (`ix1`, `ix2`): a matrix product of plain dimension numbers ([m,k] by [k,n],
contracting the left operand's axis 1 with the right operand's axis 0), the kernel's into a zero accumulator and the
host's, as the sum over the contracted coordinate; a sum over axis 0 of a matrix, the kernel's and the host's, as the
sum down the column; the host's broadcasts of a scalar to any shape and of a vector to a one-row matrix; and the words
the host's guarded quotient compares (the integer zero converted, a positive literal minus it).
-/

noncomputable section

namespace Cert.KernelIdeal.HeadValue.PlainOps

open Idealize.ShloMosaic Idealize.ShloMosaic.ValueIdx
open scoped BigOperators

variable {m k n : Nat} {φ φ₁ φ₂ : FTy}

/-- A record of plain dimension numbers is the library's, whatever its well-formedness proof. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The host's product of an m×k by a k×n matrix at (a, b): the sum over the contracted coordinate. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product into a zero accumulator at (a, b): the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  rw [matmul_zero_eq_dotGeneral]
  exact dotGeneral_apply D hD prec A B a b

/-- The source index of a column sum: row `r` of column `j`. -/
theorem lift_col (h : (⟨2, ![m, n]⟩ : Shape).Reduces [0] ⟨1, ![n]⟩) (j : Fin n) (r : Fin m) :
    h.lift (ix1 j) r = ix2 r j := by
  funext c
  apply Fin.ext
  match c with
  | ⟨0, _⟩ => rfl
  | ⟨1, _⟩ => rfl

/-- The kernel's sum over axis 0 of an m×n matrix at column `j`: the sum down the column. The accumulator
    hypothesis is the equation of the two zero words. -/
theorem multiReduction_add_col (src : FVec Ideal ⟨2, ![m, n]⟩ .f32) (h : (⟨2, ![m, n]⟩ : Shape).Reduces [0] ⟨1, ![n]⟩)
    (hφ : FKind.Formats .f32) (hacc : (0x00000000#32 : BitVec 32) = 0x00000000#32) (j : Fin n) :
    multiReduction .add [0] ⟨1, ![n]⟩ src 0x00000000#32 h hφ hacc (ix1 j) = ∑ r : Fin m, src (ix2 r j) := by
  refine (Ideal.multiReduction_add_single src 0x00000000#32 h hφ hacc (ix1 j)).trans ?_
  show ∑ r : Fin m, src (h.lift (ix1 j) r) = _
  exact Finset.sum_congr rfl fun r _ => congrArg src (lift_col h j r)

/-- The host's sum over axis 0 of an m×n matrix at column `j`: the initial value plus the sum down the column. -/
theorem hostReduceAdd_col {u : Shape} (x : FVec Ideal ⟨2, ![m, n]⟩ φ) (init : u.Idx → Ideal φ)
    (h' : (⟨2, ![m, n]⟩ : Shape).ReducesTo [0] ⟨1, ![n]⟩) (hu : 0 < u.numel)
    (h : (⟨2, ![m, n]⟩ : Shape).Reduces [0] ⟨1, ![n]⟩) (j : Fin n) :
    Host.reduceAdd x init h' hu (ix1 j) = init (Shape.Idx.first hu) + ∑ r : Fin m, x (ix2 r j) := by
  show Ideal.hostReduceAdd h' x _ (ix1 j) = _
  rw [Ideal.hostReduceAdd_single h' h]
  show _ + ∑ r : Fin m, x (h.lift (ix1 j) r) = _
  exact congrArg (_ + ·) (Finset.sum_congr rfl fun r _ => congrArg x (lift_col h j r))

section Broadcasts
variable {α : Type}

/-- A scalar broadcast to any shape reads the scalar everywhere. -/
theorem broadcastInDim_scalar_apply {t : Shape} (h : (⟨0, ![]⟩ : Shape).BroadcastsInDim t ![])
    (x : (⟨0, ![]⟩ : Shape).Idx → α) (j : t.Idx) : broadcastInDim t ![] h x j = x ix0 :=
  broadcastInDim_apply ![] h x j ix0 fun a => a.elim0

/-- A vector laid as the one row of a matrix (the host's broadcast along axis 1) reads, at (u, j), the vector at j. -/
theorem broadcastInDim_asRow_apply (h : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] h x (ix2 u j) = x (ix1 j) := by
  refine broadcastInDim_apply ![1] h x (ix2 u j) (ix1 j) fun a => ?_
  match a with
  | ⟨0, _⟩ =>
    show j.val = if n = 1 then 0 else j.val
    split
    · have := j.isLt; omega
    · rfl

end Broadcasts

/-- A literal minus the integer zero converted is the literal. -/
theorem sub_sitofp_zero (x : EReal) : x - (Scalar.sitofp .f32 0#32 : Ideal .f32) = x := by
  rw [sitofp_zero]; exact sub_zero x

/-- The f32 word `0x42800000` denotes 64. -/
theorem ofBits_64 : Ideal.ofBits .f32 0x42800000#32 = ((64 : ℝ) : EReal) := by
  simp [Ideal.ofBits, Ideal.ieee]
  rw [← EReal.coe_mul]
  norm_num

/-- So it is above zero. -/
theorem ofBits_64_pos : (0 : EReal) < Ideal.ofBits .f32 0x42800000#32 := by
  rw [ofBits_64]; exact_mod_cast (by norm_num : (0 : ℝ) < 64)

end Cert.KernelIdeal.HeadValue.PlainOps

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.IdealTileValue.lean ====
/-
  The body's arithmetic at one entry. With x0 a 128 x 8192 tile of P, x1 the tile's 128 rows of y and x2 all of y:
  the affinity payload at (r, j) is the affinity of row r's point and point j; the clipping payload is the entry
  clipped; the two products add up to the entry's term; and the block of partial sums gains, at every one of its
  8 x 128 places, the sum of the tile's 128 x 8192 terms.
-/
import proofs.«158081_j41807211660012_1_alg».proof.Proof.Gen.KernelIdeal.Skeleton
import proofs.«158081_j41807211660012_1_alg».proof.Proof.LossSpec
import proofs.«158081_j41807211660012_1_alg».proof.Proof.LibRowSum
import proofs.«158081_j41807211660012_1_alg».proof.Proof.LibPlainOps
import proofs.«158081_j41807211660012_1_alg».proof.Proof.LibBroadcastTo
import proofs.«158081_j41807211660012_1_alg».proof.Proof.LibLayoutReads
import Idealize.ShloMosaic.Lib.Pipeline.Value
import Idealize.ShloMosaic.Lib.ValueIdx

set_option maxRecDepth 16384

noncomputable section

namespace Cert.KernelIdeal.TileValue

open Cert.KernelIdeal Cert.KernelIdeal.Gen Idealize.ShloMosaic Idealize.ShloMosaic.ValueIdx Cert.PairLoss
open Cert.KernelIdeal.HeadValue
open scoped BigOperators

/-- The transposed positions: entry (k, j) is coordinate k of point j. -/
theorem transposed (x2 : FVec Ideal S8192x3 .f32) (k : Fin 3) (j : Fin 8192) :
    transpose S3x8192 [1, 0] x2 transposes_S8192x3_p1_0_S3x8192 (ix2 k j) = x2 (ix2 j k) :=
  transpose_apply [1, 0] x2 transposes_S8192x3_p1_0_S3x8192 (ix2 k j) (ix2 j k) (fun b => match b with | ⟨0, _⟩ => rfl | ⟨1, _⟩ => rfl)

/-- The affinity payload at (r, j): |y_r|² is a row sum, |y_j|² a column sum of the transposed squares, y_r·y_j the
    product's entry. -/
theorem affinity_apply (x1 : FVec Ideal S128x3 .f32) (x2 : FVec Ideal S8192x3 .f32) (r : Fin 128) (j : Fin 8192) :
    k0_pay3 (F := Ideal) x1 x2 (ix2 r j) = affinity (fun k => x1 (ix2 r k)) (fun k => x2 (ix2 j k)) := by
  unfold k0_pay3 affinity
  simp only [divf_apply, addf_apply, maximumf_apply, subf_apply, mulf_apply, broadcast_apply]
  rw [Cert.BroadcastTo.col_apply, Cert.BroadcastTo.row_apply, Cert.LayoutReads.col_of_vec_apply, Cert.LayoutReads.row_of_vec_apply,
    LibRowSum.multiReduction_add_row, PlainOps.multiReduction_add_col,
    PlainOps.matmul_zero_apply dot_S128x3_S3x8192_S128x8192_1_0_0_1_n_n rfl (some .fp32) x1 _ r j]
  simp only [mulf_apply]
  show Ideal.div one (one + max (((∑ k : Fin 3, x1 (ix2 r k) * x1 (ix2 r k))
      + ∑ k : Fin 3, transpose S3x8192 [1, 0] x2 transposes_S8192x3_p1_0_S3x8192 (ix2 k j) * transpose S3x8192 [1, 0] x2 transposes_S8192x3_p1_0_S3x8192 (ix2 k j))
      - two * ∑ k : Fin 3, x1 (ix2 r k) * transpose S3x8192 [1, 0] x2 transposes_S8192x3_p1_0_S3x8192 (ix2 k j)) zero) = _
  refine congrArg (fun z : EReal => Ideal.div one (one + max z zero)) ?_
  refine congrArg₂ (· - ·) (congrArg (_ + ·) ?_) (congrArg (two * ·) ?_)
  · exact Finset.sum_congr rfl fun k _ => congrArg₂ (· * ·) (transposed x2 k j) (transposed x2 k j)
  · exact Finset.sum_congr rfl fun k _ => congrArg (x1 (ix2 r k) * ·) (transposed x2 k j)

/-- The clipping payload at an entry. -/
theorem clip_apply (x0 : FVec Ideal S128x8192 .f32) (i : S128x8192.Idx) : k0_pay4 (F := Ideal) x0 i = clip (x0 i) := by
  unfold k0_pay4 clip
  simp only [minimumf_apply, maximumf_apply, broadcast_apply]
  rfl

/-- The two products at (r, j) add up to the entry's term (the kernel writes −p as 0 − p). -/
theorem term_apply (x0 : FVec Ideal S128x8192 .f32) (x1 : FVec Ideal S128x3 .f32) (x2 : FVec Ideal S8192x3 .f32) (r : Fin 128) (j : Fin 8192) :
    k0_pay5 (F := Ideal) x1 x2 x0 (ix2 r j) + k0_pay6 (F := Ideal) x1 x2 x0 (ix2 r j)
      = term (fun k => x1 (ix2 r k)) (fun k => x2 (ix2 j k)) (x0 (ix2 r j)) := by
  show k0_pay3 (F := Ideal) x1 x2 (ix2 r j) * Ideal.log (k0_pay4 (F := Ideal) x0 (ix2 r j))
      + (one - k0_pay3 (F := Ideal) x1 x2 (ix2 r j)) * Ideal.log1p (zero - k0_pay4 (F := Ideal) x0 (ix2 r j)) = _
  rw [affinity_apply, clip_apply]
  unfold term
  rw [show zero - clip (x0 (ix2 r j)) = -(clip (x0 (ix2 r j))) from by rw [show zero = (0 : EReal) from Ideal.ofBits_zero_f32, zero_sub]]

/-- What the accumulating store writes at a place y of the block: what was there plus the tile's total. -/
theorem total_apply (v31 v37 : FVec Ideal S128x8192 .f32) (v43 : FVec Ideal S8x128 .f32) (y : S8x128.Idx) :
    k0_pay1 (F := Ideal) v31 v37 v43 y = v43 y + ∑ r : Fin 128, ∑ j : Fin 8192, (v31 (ix2 r j) + v37 (ix2 r j)) := by
  unfold k0_pay1
  simp only [addf_apply]
  rw [shapeCast_self, shapeCast_self]
  rw [broadcastTo_apply _ broadcasts_S1x1_S8x128 y (ix2 (0 : Fin 1) (0 : Fin 1)) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl])]
  rw [Cert.LayoutReads.col_of_vec_apply, PlainOps.multiReduction_add_col]
  refine congrArg (v43 y + ·) (Finset.sum_congr rfl fun r _ => ?_)
  rw [Cert.LayoutReads.col_of_vec_apply, LibRowSum.multiReduction_add_row]
  rfl

/-- The zero block. -/
theorem zeros_apply (y : S8x128.Idx) : k0_pay2 (F := Ideal) y = 0 := by
  unfold k0_pay2
  simp only [broadcast_apply]
  exact Ideal.ofBits_zero_f32

/-- The sum of one tile's terms. -/
def tileSum (x0 : FVec Ideal S128x8192 .f32) (x1 : FVec Ideal S128x3 .f32) (x2 : FVec Ideal S8192x3 .f32) : EReal :=
  ∑ r : Fin 128, ∑ j : Fin 8192, term (fun k => x1 (ix2 r k)) (fun k => x2 (ix2 j k)) (x0 (ix2 r j))

/-- A first tile leaves the tile's sum everywhere in the block. -/
theorem first_apply (x0 : FVec Ideal S128x8192 .f32) (x1 : FVec Ideal S128x3 .f32) (x2 : FVec Ideal S8192x3 .f32) (y : S8x128.Idx) :
    k0_pay1 (F := Ideal) (k0_pay5 x1 x2 x0) (k0_pay6 x1 x2 x0) (k0_pay2 (F := Ideal)) y = 0 + tileSum x0 x1 x2 := by
  rw [total_apply, zeros_apply]
  unfold tileSum
  simp only [term_apply]

/-- A later tile adds the tile's sum to what the block held. -/
theorem later_apply (x0 : FVec Ideal S128x8192 .f32) (x1 : FVec Ideal S128x3 .f32) (x2 : FVec Ideal S8192x3 .f32) (xo : FVec Ideal S8x128 .f32) (y : S8x128.Idx) :
    k0_pay1 (F := Ideal) (k0_pay5 x1 x2 x0) (k0_pay6 x1 x2 x0) xo y = xo y + tileSum x0 x1 x2 := by
  rw [total_apply]
  unfold tileSum
  simp only [term_apply]

end Cert.KernelIdeal.TileValue

end
-- ==== Proof.IdealSums.lean ====
/-
  The kernel's scalar as sums. At a writing point the block holds, at every place, zero plus the sums of the 32 tiles
  of its half (the reset at the half's first tile, one addition per later tile); a tile's sum is the sum of the loss's
  terms over the tile's 128 rows of the whole matrix; so the two entries the host reads add up to the sum over all
  8192 rows, and the result is that sum negated and divided by 2²⁶.
-/
import proofs.«158081_j41807211660012_1_alg».proof.Proof.IdealFrame
import proofs.«158081_j41807211660012_1_alg».proof.Proof.IdealTileValue

set_option maxRecDepth 16384

noncomputable section

namespace Cert.KernelIdeal.Tile

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.PairLoss Cert.KernelIdeal.TileValue
open scoped BigOperators

variable (m : (ℓ : Loc nD τ sig) → Buf (Elt Ideal) ℓ) (ρ : Dev nD → PrngReg)

/-- Point n's tile sum (zero past the grid). -/
def tileAt (c : Dev nD) (n : ℕ) : EReal :=
  if h : n < cfg0.N then tileSum (iblk m c 0 ⟨n, h⟩) (iblk m c 1 ⟨n, h⟩) (iblk m c 2 ⟨n, h⟩) else 0

/-- The block after point t: zero plus the tile sums of its half up to t. -/
theorem accAt_sum (c : Dev nD) (t : ℕ) (ht : t < cfg0.N) (y : S8x128.Idx) :
    accAt m c t ht y = 0 + ∑ s ∈ Finset.range (t % 32 + 1), tileAt m c (32 * (t / 32) + s) := by
  have h' : 32 * (t / 32) + t % 32 < cfg0.N := by rw [Nat.div_add_mod]; exact ht
  have key : (accAt m c t ht : S8x128.Idx → EReal)
      = Pipeline.accAt (N := cfg0.N) (fun n _ (_ : S8x128.Idx) => (0 : EReal) + tileAt m c n)
          (fun n _ (acc : S8x128.Idx → EReal) y => acc y + tileAt m c n) (32 * (t / 32)) (t % 32) h' :=
    Pipeline.eq_accAt_of_mod (N := cfg0.N) (fun n h => (accAt m c n h : S8x128.Idx → EReal)) 32 _ _
      (fun n h hn => by
        funext y
        show accAt m c (⟨n, h⟩ : Fin cfg0.N).val (⟨n, h⟩ : Fin cfg0.N).isLt y = _
        rw [accAt_first m c ⟨n, h⟩ hn, outFirst_eq, first_apply]
        unfold tileAt; rw [dif_pos h])
      (fun n h hn => by
        funext y
        show accAt m c (⟨n + 1, h⟩ : Fin cfg0.N).val (⟨n + 1, h⟩ : Fin cfg0.N).isLt y = _
        rw [accAt_later m c ⟨n + 1, h⟩ hn, outLater_eq, later_apply]
        unfold tileAt; rw [dif_pos h]
        rfl)
      (by norm_num) t ht h'
  rw [key]
  exact Pipeline.accAt_add_apply (N := cfg0.N) _ _ (fun _ => (0 : EReal)) (fun n _ => tileAt m c n) (32 * (t / 32)) 31
    (fun _ _ => rfl) (fun _ _ _ _ _ _ => rfl) (t % 32) (by have := Nat.mod_lt t (by norm_num : 0 < 32); omega) h' y

/-- Entry (0, 0) of the array of partial sums: the first half's 32 tile sums. -/
theorem sums_first (c : Dev nD) :
    (dats m 0 c).arrAt 3 cfg0.N (ix2 (0 : Fin 16) (0 : Fin 128)) = 0 + ∑ s ∈ Finset.range 32, tileAt m c s := by
  have hN : (31 : ℕ) < cfg0.N := by have : cfg0.N = 64 := N_0; omega
  have hf : (cfg0.win 3).flush ⟨31, hN⟩ = true := (flush0_3 ⟨31, hN⟩).mpr (by norm_num)
  have e : ((cfg0.win 3).blk ⟨31, hN⟩).view.emb (ix2 (0 : Fin 8) (0 : Fin 128)) = ix2 (0 : Fin 16) (0 : Fin 128) := by
    funext a; apply Fin.ext
    match a with
    | ⟨0, _⟩ => show win0_3.index ⟨31, hN⟩ (0 : Fin 2) * 8 + 1 * 0 = 0; rw [(idxAcc ⟨31, hN⟩).1]; show (31 : ℕ) / 32 * 8 + 1 * 0 = 0; norm_num
    | ⟨1, _⟩ => show win0_3.index ⟨31, hN⟩ (1 : Fin 2) * 128 + 1 * 0 = 0; rw [(idxAcc ⟨31, hN⟩).2]
  rw [← e, sums_at m c ⟨31, hN⟩ hf, accAt_sum]
  simp

/-- Entry (8, 0): the second half's 32 tile sums. -/
theorem sums_second (c : Dev nD) :
    (dats m 0 c).arrAt 3 cfg0.N (ix2 (8 : Fin 16) (0 : Fin 128)) = 0 + ∑ s ∈ Finset.range 32, tileAt m c (32 + s) := by
  have hN : (63 : ℕ) < cfg0.N := by have : cfg0.N = 64 := N_0; omega
  have hf : (cfg0.win 3).flush ⟨63, hN⟩ = true := (flush0_3 ⟨63, hN⟩).mpr (by norm_num)
  have e : ((cfg0.win 3).blk ⟨63, hN⟩).view.emb (ix2 (0 : Fin 8) (0 : Fin 128)) = ix2 (8 : Fin 16) (0 : Fin 128) := by
    funext a; apply Fin.ext
    match a with
    | ⟨0, _⟩ => show win0_3.index ⟨63, hN⟩ (0 : Fin 2) * 8 + 1 * 0 = 8; rw [(idxAcc ⟨63, hN⟩).1]; show (63 : ℕ) / 32 * 8 + 1 * 0 = 8; norm_num
    | ⟨1, _⟩ => show win0_3.index ⟨63, hN⟩ (1 : Fin 2) * 128 + 1 * 0 = 0; rw [(idxAcc ⟨63, hN⟩).2]
  rw [← e, sums_at m c ⟨63, hN⟩ hf, accAt_sum]
  simp

end Cert.KernelIdeal.Tile

end
-- ==== Proof.IdealTotal.lean ====
/-
  The kernel's scalar is the loss. A tile's blocks are rows of the whole arrays: at point n the tile of P is rows
  128 n .. 128 n + 127, the tile's rows of y are the same rows of y, and the third block is all of y. So point n's
  tile sum is the sum of the terms of those rows; the 64 tile sums together are the sum over all rows; and the host
  lines return that sum negated and divided by 2²⁶ — the same as dividing first and negating after.
-/
import proofs.«158081_j41807211660012_1_alg».proof.Proof.IdealSums

set_option maxRecDepth 16384

noncomputable section

namespace Cert.KernelIdeal.Tile

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.PairLoss Cert.KernelIdeal.TileValue
open scoped BigOperators

variable (m : (ℓ : Loc nD τ sig) → Buf (Elt Ideal) ℓ) (ρ : Dev nD → PrngReg)

/-- The matrix P and the positions y as core `c` is launched with them. -/
abbrev matP (c : Dev nD) : FVec Ideal S8192x8192 .f32 := V m c main_arg0
abbrev ptsY (c : Dev nD) : FVec Ideal S8192x3 .f32 := V m c main_arg1

/-- The tile of P at point n: rows 128 n + r. -/
theorem tile_P (c : Dev nD) (n : ℕ) (h : n < cfg0.N) (r : Fin 128) (j : Fin 8192) (hr : 128 * n + r.val < 8192) :
    iblk m c 0 ⟨n, h⟩ (ix2 r j) = matP m c (ix2 ⟨128 * n + r.val, hr⟩ j) := by
  show V m c (Pipeline.arrRef spec0 0) (((cfg0.win 0).blk ⟨n, h⟩).view.emb (ix2 r j)) = V m c main_arg0 (ix2 ⟨128 * n + r.val, hr⟩ j)
  refine congrArg (V m c main_arg0) (funext fun a => Fin.ext ?_)
  match a with
  | ⟨0, _⟩ => show win0_0.index ⟨n, h⟩ (0 : Fin 2) * 128 + 1 * r.val = 128 * n + r.val; rw [(idxP ⟨n, h⟩).1]; show n * 128 + 1 * r.val = _; omega
  | ⟨1, _⟩ => show win0_0.index ⟨n, h⟩ (1 : Fin 2) * 8192 + 1 * j.val = j.val; rw [(idxP ⟨n, h⟩).2]; omega

/-- The tile's rows of y at point n: rows 128 n + r. -/
theorem tile_rows (c : Dev nD) (n : ℕ) (h : n < cfg0.N) (r : Fin 128) (k : Fin 3) (hr : 128 * n + r.val < 8192) :
    iblk m c 1 ⟨n, h⟩ (ix2 r k) = ptsY m c (ix2 ⟨128 * n + r.val, hr⟩ k) := by
  show V m c (Pipeline.arrRef spec0 1) (((cfg0.win 1).blk ⟨n, h⟩).view.emb (ix2 r k)) = V m c main_arg1 (ix2 ⟨128 * n + r.val, hr⟩ k)
  refine congrArg (V m c main_arg1) (funext fun a => Fin.ext ?_)
  match a with
  | ⟨0, _⟩ => show win0_1.index ⟨n, h⟩ (0 : Fin 2) * 128 + 1 * r.val = 128 * n + r.val; rw [(idxRows ⟨n, h⟩).1]; show n * 128 + 1 * r.val = _; omega
  | ⟨1, _⟩ => show win0_1.index ⟨n, h⟩ (1 : Fin 2) * 3 + 1 * k.val = k.val; rw [(idxRows ⟨n, h⟩).2]; omega

/-- The third block is all of y. -/
theorem tile_all (c : Dev nD) (n : ℕ) (h : n < cfg0.N) (j : Fin 8192) (k : Fin 3) :
    iblk m c 2 ⟨n, h⟩ (ix2 j k) = ptsY m c (ix2 j k) := by
  show V m c (Pipeline.arrRef spec0 2) (((cfg0.win 2).blk ⟨n, h⟩).view.emb (ix2 j k)) = V m c main_arg1 (ix2 j k)
  refine congrArg (V m c main_arg1) (funext fun a => Fin.ext ?_)
  match a with
  | ⟨0, _⟩ => show win0_2.index ⟨n, h⟩ (0 : Fin 2) * 8192 + 1 * j.val = j.val; rw [(idxAll ⟨n, h⟩).1]; omega
  | ⟨1, _⟩ => show win0_2.index ⟨n, h⟩ (1 : Fin 2) * 3 + 1 * k.val = k.val; rw [(idxAll ⟨n, h⟩).2]; omega

/-- Row i's sum of terms (zero past the matrix). -/
def rowSum (c : Dev nD) (i : ℕ) : EReal :=
  if h : i < 8192 then ∑ j : Fin 8192, entry (matP m c) (ptsY m c) ⟨i, h⟩ j else 0

/-- Point n's tile sum is the sum of its 128 rows' sums. -/
theorem tileAt_rows (c : Dev nD) (n : ℕ) (h : n < 64) : tileAt m c n = ∑ r ∈ Finset.range 128, rowSum m c (128 * n + r) := by
  have hN : n < cfg0.N := lt_of_lt_of_eq h N_0.symm
  unfold tileAt
  rw [dif_pos hN, Finset.sum_range]
  unfold tileSum
  refine Finset.sum_congr rfl fun r _ => ?_
  have hr : 128 * n + r.val < 8192 := by have := r.isLt; omega
  unfold rowSum
  rw [dif_pos hr]
  refine Finset.sum_congr rfl fun j _ => ?_
  unfold entry
  rw [tile_P m c n hN r j hr]
  refine congrArg₂ (fun u v => term u v _) (funext fun k => tile_rows m c n hN r k hr) (funext fun k => tile_all m c n hN j k)

/-- The 64 tile sums together: the sum of the terms over the whole matrix. -/
theorem tiles_total (c : Dev nD) :
    ∑ n ∈ Finset.range 64, tileAt m c n = ∑ i : Fin 8192, ∑ j : Fin 8192, entry (matP m c) (ptsY m c) i j := by
  rw [Finset.sum_congr rfl fun n hn => tileAt_rows m c n (Finset.mem_range.mp hn), ← sum_range_mul (rowSum m c) 64 128,
    Finset.sum_range]
  refine Finset.sum_congr rfl fun i _ => ?_
  unfold rowSum
  rw [dif_pos i.isLt]

/-- The host lines at the scalar index. -/
theorem finish_apply (A : FVec Ideal S16x128 .f32) :
    finish (F := Ideal) A ix0 = Ideal.div (-(A (ix2 (0 : Fin 16) (0 : Fin 128)) + A (ix2 (8 : Fin 16) (0 : Fin 128)))) count := by
  have hpos : ((S1x1.rowMajor (ix2 (0 : Fin 1) (0 : Fin 1))).val) = (S_.rowMajor ix0).val := by
    have h1 := (S_.rowMajor ix0).isLt
    have h2 : S_.numel = 1 := rfl
    rw [Shape.rowMajor_val_two]
    show 0 * 1 + 0 = _
    omega
  have e0 : shapeCast S_ (extractStridedSlice S1x1 ![0, 0] A slices_S16x128_S1x1_0_0) shapeCasts_S1x1_S_ ix0 = A (ix2 (0 : Fin 16) (0 : Fin 128)) :=
    (shapeCast_apply _ shapeCasts_S1x1_S_ ix0 (ix2 (0 : Fin 1) (0 : Fin 1)) hpos).trans
      (extractStridedSlice_apply ![0, 0] A slices_S16x128_S1x1_0_0 (ix2 (0 : Fin 1) (0 : Fin 1)) (ix2 (0 : Fin 16) (0 : Fin 128))
        (fun a => match a with | ⟨0, _⟩ => rfl | ⟨1, _⟩ => rfl))
  have e8 : shapeCast S_ (extractStridedSlice S1x1 ![8, 0] A slices_S16x128_S1x1_8_0) shapeCasts_S1x1_S_ ix0 = A (ix2 (8 : Fin 16) (0 : Fin 128)) :=
    (shapeCast_apply _ shapeCasts_S1x1_S_ ix0 (ix2 (0 : Fin 1) (0 : Fin 1)) hpos).trans
      (extractStridedSlice_apply ![8, 0] A slices_S16x128_S1x1_8_0 (ix2 (0 : Fin 1) (0 : Fin 1)) (ix2 (8 : Fin 16) (0 : Fin 128))
        (fun a => match a with | ⟨0, _⟩ => rfl | ⟨1, _⟩ => rfl))
  show Ideal.div (-(shapeCast S_ (extractStridedSlice S1x1 ![0, 0] A slices_S16x128_S1x1_0_0) shapeCasts_S1x1_S_ ix0
      + shapeCast S_ (extractStridedSlice S1x1 ![8, 0] A slices_S16x128_S1x1_8_0) shapeCasts_S1x1_S_ ix0)) count = _
  rw [e0, e8]

/-- THE KERNEL'S VALUE: the scalar the run leaves is the loss of the launch arrays. -/
theorem kernel_loss (c : Dev nD) (i : S_.Idx) :
    finish (F := Ideal) ((dats m 0 c).arrAt 3 cfg0.N) i = loss (matP m c) (ptsY m c) := by
  rw [eq_ix0 i, finish_apply, sums_first, sums_second, zero_add, zero_add,
    ← Finset.sum_range_add (fun n => tileAt m c n) 32 32, tiles_total, div_count_neg]
  rfl

end Cert.KernelIdeal.Tile

end
-- ==== Proof.RefLoss.lean ====
/-
  The reference's result is the loss. Read one operation at a time: the squared norms are row sums of y ∘ y (from a
  zero initial value), broadcast down the rows and across the columns; the cross term is the product y yᵀ; the clip is
  min (1, max (ε, p)); the two products make the entry's term; the mean is the sum over all entries, from a zero
  initial value, divided by 2²⁶; the result is its negation.
-/
import proofs.«158081_j41807211660012_1_alg».proof.Proof.Gen.ReferenceIdeal.Read
import proofs.«158081_j41807211660012_1_alg».proof.Proof.LossSpec

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.PairLoss
open scoped BigOperators

variable (P : FVec Ideal S8192x8192 .f32) (Y : FVec Ideal S8192x3 .f32)

/-- |y_i|² as the reference sums it. -/
theorem sq_apply (i : Fin 8192) : val_main_v1 (F := Ideal) Y (ix1 i) = ∑ k : Fin 3, Y (ix2 i k) * Y (ix2 i k) := by
  rw [val_main_v1_apply]
  show Ideal.ofBits .f32 0x00000000#32 + ∑ k : Fin 3, Y (idx_main_v1 (ix1 i) k) * Y (idx_main_v1 (ix1 i) k) = _
  rw [Ideal.ofBits_zero_f32, zero_add]
  refine Finset.sum_congr rfl fun k _ => ?_
  have e : idx_main_v1 (ix1 i) k = ix2 i k := funext fun a => Fin.ext (by match a with | ⟨0, _⟩ => rfl | ⟨1, _⟩ => rfl)
  rw [e]

/-- y_i · y_j as the reference's product. -/
theorem cross_apply (i j : Fin 8192) : val_main_v8 (F := Ideal) Y (ix2 i j) = ∑ k : Fin 3, Y (ix2 i k) * Y (ix2 j k) := by
  rw [val_main_v8_apply]
  refine Finset.sum_congr rfl fun k _ => ?_
  have el : lidx_main_v8 (ix2 i j) k = ix2 i k := funext fun a => Fin.ext (by match a with | ⟨0, _⟩ => rfl | ⟨1, _⟩ => rfl)
  have er : idx_main_v7 (ridx_main_v8 (ix2 i j) k) = ix2 j k := funext fun a => Fin.ext (by match a with | ⟨0, _⟩ => rfl | ⟨1, _⟩ => rfl)
  rw [val_main_v7_apply, el, er]

/-- The affinity of points i and j. -/
theorem affinity_apply (i j : Fin 8192) :
    val_main_v17 (F := Ideal) Y (ix2 i j) = affinity (fun k => Y (ix2 i k)) (fun k => Y (ix2 j k)) := by
  have e4 : idx_main_v2 (idx_main_v4 (ix2 i j)) = ix1 i := funext fun a => Fin.ext (by match a with | ⟨0, _⟩ => rfl)
  have e5 : idx_main_v3 (idx_main_v5 (ix2 i j)) = ix1 j := funext fun a => Fin.ext (by match a with | ⟨0, _⟩ => rfl)
  have h4 : val_main_v4 (F := Ideal) Y (ix2 i j) = ∑ k : Fin 3, Y (ix2 i k) * Y (ix2 i k) := by
    rw [val_main_v4_apply, val_main_v2_apply, e4, sq_apply]
  have h5 : val_main_v5 (F := Ideal) Y (ix2 i j) = ∑ k : Fin 3, Y (ix2 j k) * Y (ix2 j k) := by
    rw [val_main_v5_apply, val_main_v3_apply, e5, sq_apply]
  show Ideal.div one (one + max ((val_main_v4 (F := Ideal) Y (ix2 i j) + val_main_v5 (F := Ideal) Y (ix2 i j))
      - two * val_main_v8 (F := Ideal) Y (ix2 i j)) zero) = _
  rw [h4, h5, cross_apply]
  rfl

/-- The clipped entry. -/
theorem clip_apply (i : S8192x8192.Idx) : val_main_v18 (F := Ideal) P i = clip (P i) := rfl

/-- The entry's term. -/
theorem entry_apply (i j : Fin 8192) : val_main_v26 (F := Ideal) P Y (ix2 i j) = entry P Y i j := by
  show val_main_v17 (F := Ideal) Y (ix2 i j) * Ideal.log (val_main_v18 (F := Ideal) P (ix2 i j))
      + (one - val_main_v17 (F := Ideal) Y (ix2 i j)) * Ideal.log1p (-(val_main_v18 (F := Ideal) P (ix2 i j))) = _
  rw [affinity_apply, clip_apply]
  rfl

/-- THE REFERENCE'S VALUE: its result is the loss of its arguments. -/
theorem reference_loss (i : S_.Idx) : val_main_v29 (F := Ideal) P Y i = loss P Y := by
  rw [val_main_v29_apply, val_main_v28_apply, val_main_v27_apply]
  show -(Ideal.div (Ideal.ofBits .f32 0x00000000#32 + ∑ q : S8192x8192.Idx, val_main_v26 (F := Ideal) P Y q) count) = _
  rw [Ideal.ofBits_zero_f32, zero_add, sum_idx2]
  unfold loss
  refine congrArg (fun z : EReal => -(Ideal.div z count)) ?_
  exact Finset.sum_congr rfl fun a _ => Finset.sum_congr rfl fun b _ => entry_apply P Y a b

end Cert.ReferenceIdeal.RefValue

end
-- ==== Proof.lean ====
/-
  The kernel streams the 8192 x 8192 matrix P through a 2 x 32 grid of 128-row tiles; for each tile it forms, for
  every entry (i, j), the affinity q = 1 / (1 + max (|y_i|² + |y_j|² − 2 y_i·y_j, 0)) of the points y_i, y_j and the
  term q · log p + (1 − q) · log (1 − p) of the entry p clipped to [ε, 1], sums the tile's terms and adds the total to a
  block of partial sums kept per half of the grid; the host adds the two halves' totals, negates and divides by 2²⁶.
  The reference forms the same terms for the whole matrix at once, takes their mean and negates it.
  On the extended reals both are one number: minus the sum of all the terms divided by 2²⁶ — a sum may be taken in any
  order and grouping there, 0 − p is −p, and negation commutes with division by the non-zero 2²⁶. No finiteness of the
  inputs is used.
  The three programs each run to the end without a fault and leave their arguments as they found them; the idealized
  kernel is the kernel's own text read at the extended reals (no operation was rewritten).
-/
import proofs.«158081_j41807211660012_1_alg».proof.Defs
import proofs.«158081_j41807211660012_1_alg».proof.Proof.Gen.Kernel
import proofs.«158081_j41807211660012_1_alg».proof.Proof.Gen.KernelIdeal
import proofs.«158081_j41807211660012_1_alg».proof.Proof.Gen.ReferenceIdeal
import proofs.«158081_j41807211660012_1_alg».proof.Proof.Gen.ReferenceIdeal.Run
import proofs.«158081_j41807211660012_1_alg».proof.Proof.Gen.ReferenceIdeal.Read
import proofs.«158081_j41807211660012_1_alg».proof.Proof.Gen.Pre_finite_inputs
import proofs.«158081_j41807211660012_1_alg».proof.Proof.BitsFrame
import proofs.«158081_j41807211660012_1_alg».proof.Proof.IdealTotal
import proofs.«158081_j41807211660012_1_alg».proof.Proof.RefLoss

noncomputable section

namespace Cert.Proof

open Idealize.ShloMosaic Idealize.ShloMosaic.TcCoe Idealize.SL.Sem

/-- The kernel runs and keeps its arguments. -/
theorem frame_kernel : Cert.frame_Kernel := fun m ρ _ => Cert.Kernel.Tile.frame m ρ

/-- So does its reading at the extended reals. -/
theorem frame_kernelIdeal : Cert.frame_KernelIdeal := fun m ρ _ => Cert.KernelIdeal.Tile.frame m ρ

/-- The reference runs and keeps its arguments: its run with the result dropped. -/
theorem frame_referenceIdeal : Cert.frame_ReferenceIdeal := fun m ρ _ =>
  (θ_run Cert.ReferenceIdeal.defs _ _).mono (fun _ h c => ⟨(h c).2.2.1, (h c).2.1⟩) (Cert.ReferenceIdeal.Value.run (F := Ideal) m ρ)

/-- No operation was rewritten. -/
theorem preserves : Cert.preserves_Kernel_KernelIdeal := trivial

/-- From memories that agree on P and y, the kernel's scalar and the reference's are the loss of those arrays, and both
    return y unchanged. -/
theorem algebraic : Cert.algebraic_KernelIdeal_ReferenceIdeal := by
  intro m ρ m' ρ' _ hagree
  refine ⟨fun c => Cert.KernelIdeal.Tile.finish (F := Ideal) ((Cert.KernelIdeal.Tile.dats m 0 c).arrAt 3 Cert.KernelIdeal.cfg0.N),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2, (h c).2.1, (h c).2.2⟩)
      (Cert.KernelIdeal.Tile.run_result m ρ)
  · refine (θ_run Cert.ReferenceIdeal.defs _ _).mono (fun _ h c => ⟨(h c).1.trans ?_, ((h c).2.1).trans (hagree c).2, (h c).2.2.1, (h c).2.1⟩)
      (Cert.ReferenceIdeal.Value.run (F := Ideal) m' ρ')
    show Cert.ReferenceIdeal.Read.val_main_v29 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    funext i
    rw [Cert.ReferenceIdeal.RefValue.reference_loss, (hagree c).1, (hagree c).2]
    exact (Cert.KernelIdeal.Tile.kernel_loss m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
